-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part6 {F : FTy → Type} [FloatOps F] (main_v98 : IVec S_ 1) (main_v101 : IVec S40 1) (main_c_39 : IVec S_ 1) : IVec S_ 1 :=
  let main_v102 : IVec S_ 1 := (fun x v => Host.reduce IntOp.andi x v reducesTo_S40_S_d0 h_S_) main_v101 main_c_39
  let main_v103 : IVec S_ 1 := andi main_v98 main_v102
  main_v103

def fn_part5 {F : FTy → Type} [FloatOps F] (main_arg19 : FVec F S128 .f32) (main_arg20 : FVec F S128x40 .f32) (main_arg21 : FVec F S40 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x40 .f32 := Host.absf main_arg20
  let main_cst_36 : FVec F S_ .f32 := constant S_ .f32 0x7F800000#32
  let main_v95 : FVec F S128x40 .f32 := broadcastInDim S128x40 ![] bcast_S_S128x40 main_cst_36
  let main_v96 : IVec S128x40 1 := cmpf .olt main_v94 main_v95
  let main_c_37 : IVec S_ 1 := constantI S_ 1 1#1
  let main_v97 : IVec S_ 1 := (fun x v => Host.reduce IntOp.andi x v reducesTo_S128x40_S_d0_1 h_S_) main_v96 main_c_37
  let main_v98 : IVec S_ 1 := andi main_v93 main_v97
  let main_v99 : FVec F S40 .f32 := Host.absf main_arg21
  let main_cst_38 : FVec F S_ .f32 := constant S_ .f32 0x7F800000#32
  let main_v100 : FVec F S40 .f32 := broadcastInDim S40 ![] bcast_S_S40 main_cst_38
  let main_v101 : IVec S40 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128x40 .f32) (main_arg21 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128x40 .f32) (main_arg21 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128x40 .f32) (main_arg21 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128x40 .f32) (main_arg21 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128x40 .f32) (main_arg21 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 69
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x40, .f32⟩
  | .hbm, ⟨21, _⟩ => ⟨S40, .f32⟩
  | .hbm, ⟨22, _⟩ => ⟨S1x600000, .i32⟩
  | .hbm, ⟨23, _⟩ => ⟨S600000, .i32⟩
  | .hbm, ⟨24, _⟩ => ⟨S1x600000, .i32⟩
  | .hbm, ⟨25, _⟩ => ⟨S600000, .i32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S50000x128, .f32⟩
  | .hbm, ⟨37, _⟩ => ⟨S600000x1, .i32⟩
  | .hbm, ⟨38, _⟩ => ⟨S50000x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S1x128, .f32⟩
  | .hbm, ⟨67, _⟩ => ⟨S1x40, .f32⟩
  | .hbm, ⟨68, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x40, .f32⟩
  | 21 => ⟨S40, .f32⟩
  | 22 => ⟨S1x600000, .i32⟩
  | 23 => ⟨S600000, .i32⟩
  | 24 => ⟨S1x600000, .i32⟩
  | 25 => ⟨S600000, .i32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x600000, .i32⟩
  | 71 => ⟨S600000, .i32⟩
  | 72 => ⟨S1x600000, .i32⟩
  | 73 => ⟨S600000, .i32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x40, .f32⟩
  | 126 => ⟨S1x40, .f32⟩
  | 127 => ⟨S50000x40, .f32⟩
  | _ => ⟨S50000x128, .f32⟩

abbrev hbmTy0_1 (i : Nat) : BufTy := match i % 128 with
  | 0 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call0_cst : Ref sig .tc := ⟨.hbm, 60, rfl⟩
abbrev main_call0_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_cst : Ref sig .tc := ⟨.hbm, 67, rfl⟩
abbrev main_call1_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_2 : Ref sig .tc := ⟨.hbm, 74, rfl⟩
abbrev main_v44 : Ref sig .tc := ⟨.hbm, 75, rfl⟩
abbrev main_v45 : Ref sig .tc := ⟨.hbm, 76, rfl⟩
abbrev main_c_3 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_4 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_5 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call2_cst : Ref sig .tc := ⟨.hbm, 108, rfl⟩
abbrev main_call2_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_cst : Ref sig .tc := ⟨.hbm, 115, rfl⟩
abbrev main_call3_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call4_cst : Ref sig .tc := ⟨.hbm, 122, rfl⟩
abbrev main_call4_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run, with every buffer named.

  The program is three row-tiled dense regions among stretches of host operations. Every weakly fair execution of it
  terminates without a fault, and in every final state each buffer the TensorCore holds outside the regions' staging
  space has the contents the run's fold gives it: the launch memory pushed through the first stretch of host
  operations, the first region's write-backs, the second stretch, the second region, the third stretch and the third
  region. Reading the result buffer out of that fold is what the value of the kernel is; the arguments read back to
  the launch memory.
-/
import proofs.«103206_j32908039422341_1_alg».proof.Proof.Gen.KernelIdeal.Frame

set_option maxRecDepth 16384

noncomputable section

namespace Cert.KernelIdeal.HeldRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer held outside the staging space ends at
    the last boundary's contents of the fold through the program. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.HeldRun

end
-- ==== Proof.KernelFoldArgs.lean ====
/-
  What a buffer that nothing writes holds at each boundary of the run.

  The run passes from the launch memory through a stretch of host operations, a region, a second stretch, a second
  region, a third stretch and a third region. A stretch changes only the buffers its operations write, and a region
  changes only the arrays its windows own. So a buffer that no operation of a stretch writes holds after the stretch
  what it held before it, and a buffer a region does not own holds at the region's exit what it held at its entry.
  Walking an argument buffer back through the boundaries it crosses untouched reaches the launch memory: at each of
  those boundaries it still holds its launch contents. The same two facts, used once, pass an intermediate buffer
  unchanged across one region or one stretch.
-/
import proofs.«103206_j32908039422341_1_alg».proof.Proof.Gen.KernelIdeal.Frame

set_option maxRecDepth 16384

noncomputable section

namespace Cert.KernelIdeal.FoldArgs

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the stretch writes the buffer, so the buffer holds after the stretch what it held before it:
    each operation's written buffers are listed and the buffer is none of them. -/
local macro "unwritten " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### After the first stretch -/

theorem W1_arg0 (c : Dev nD) :
    W1 m ρ c (Proc.devRef .tc main_arg0) = m ((c : Thread nD τ).loc main_arg0) :=
  (show W1 m ρ c (Proc.devRef .tc main_arg0) = W0 m ρ c (Proc.devRef .tc main_arg0) by
    unwritten hostOps0 main_arg0).trans rfl
theorem W1_arg2 (c : Dev nD) :
    W1 m ρ c (Proc.devRef .tc main_arg2) = m ((c : Thread nD τ).loc main_arg2) :=
  (show W1 m ρ c (Proc.devRef .tc main_arg2) = W0 m ρ c (Proc.devRef .tc main_arg2) by
    unwritten hostOps0 main_arg2).trans rfl
theorem W1_arg8 (c : Dev nD) :
    W1 m ρ c (Proc.devRef .tc main_arg8) = m ((c : Thread nD τ).loc main_arg8) :=
  (show W1 m ρ c (Proc.devRef .tc main_arg8) = W0 m ρ c (Proc.devRef .tc main_arg8) by
    unwritten hostOps0 main_arg8).trans rfl
theorem W1_arg10 (c : Dev nD) :
    W1 m ρ c (Proc.devRef .tc main_arg10) = m ((c : Thread nD τ).loc main_arg10) :=
  (show W1 m ρ c (Proc.devRef .tc main_arg10) = W0 m ρ c (Proc.devRef .tc main_arg10) by
    unwritten hostOps0 main_arg10).trans rfl
theorem W1_arg11 (c : Dev nD) :
    W1 m ρ c (Proc.devRef .tc main_arg11) = m ((c : Thread nD τ).loc main_arg11) :=
  (show W1 m ρ c (Proc.devRef .tc main_arg11) = W0 m ρ c (Proc.devRef .tc main_arg11) by
    unwritten hostOps0 main_arg11).trans rfl
theorem W1_arg12 (c : Dev nD) :
    W1 m ρ c (Proc.devRef .tc main_arg12) = m ((c : Thread nD τ).loc main_arg12) :=
  (show W1 m ρ c (Proc.devRef .tc main_arg12) = W0 m ρ c (Proc.devRef .tc main_arg12) by
    unwritten hostOps0 main_arg12).trans rfl
theorem W1_arg13 (c : Dev nD) :
    W1 m ρ c (Proc.devRef .tc main_arg13) = m ((c : Thread nD τ).loc main_arg13) :=
  (show W1 m ρ c (Proc.devRef .tc main_arg13) = W0 m ρ c (Proc.devRef .tc main_arg13) by
    unwritten hostOps0 main_arg13).trans rfl
theorem W1_arg14 (c : Dev nD) :
    W1 m ρ c (Proc.devRef .tc main_arg14) = m ((c : Thread nD τ).loc main_arg14) :=
  (show W1 m ρ c (Proc.devRef .tc main_arg14) = W0 m ρ c (Proc.devRef .tc main_arg14) by
    unwritten hostOps0 main_arg14).trans rfl
theorem W1_arg15 (c : Dev nD) :
    W1 m ρ c (Proc.devRef .tc main_arg15) = m ((c : Thread nD τ).loc main_arg15) :=
  (show W1 m ρ c (Proc.devRef .tc main_arg15) = W0 m ρ c (Proc.devRef .tc main_arg15) by
    unwritten hostOps0 main_arg15).trans rfl
theorem W1_arg16 (c : Dev nD) :
    W1 m ρ c (Proc.devRef .tc main_arg16) = m ((c : Thread nD τ).loc main_arg16) :=
  (show W1 m ρ c (Proc.devRef .tc main_arg16) = W0 m ρ c (Proc.devRef .tc main_arg16) by
    unwritten hostOps0 main_arg16).trans rfl
theorem W1_arg17 (c : Dev nD) :
    W1 m ρ c (Proc.devRef .tc main_arg17) = m ((c : Thread nD τ).loc main_arg17) :=
  (show W1 m ρ c (Proc.devRef .tc main_arg17) = W0 m ρ c (Proc.devRef .tc main_arg17) by
    unwritten hostOps0 main_arg17).trans rfl
theorem W1_arg18 (c : Dev nD) :
    W1 m ρ c (Proc.devRef .tc main_arg18) = m ((c : Thread nD τ).loc main_arg18) :=
  (show W1 m ρ c (Proc.devRef .tc main_arg18) = W0 m ρ c (Proc.devRef .tc main_arg18) by
    unwritten hostOps0 main_arg18).trans rfl
theorem W1_arg19 (c : Dev nD) :
    W1 m ρ c (Proc.devRef .tc main_arg19) = m ((c : Thread nD τ).loc main_arg19) :=
  (show W1 m ρ c (Proc.devRef .tc main_arg19) = W0 m ρ c (Proc.devRef .tc main_arg19) by
    unwritten hostOps0 main_arg19).trans rfl
theorem W1_arg20 (c : Dev nD) :
    W1 m ρ c (Proc.devRef .tc main_arg20) = m ((c : Thread nD τ).loc main_arg20) :=
  (show W1 m ρ c (Proc.devRef .tc main_arg20) = W0 m ρ c (Proc.devRef .tc main_arg20) by
    unwritten hostOps0 main_arg20).trans rfl
theorem W1_arg21 (c : Dev nD) :
    W1 m ρ c (Proc.devRef .tc main_arg21) = m ((c : Thread nD τ).loc main_arg21) :=
  (show W1 m ρ c (Proc.devRef .tc main_arg21) = W0 m ρ c (Proc.devRef .tc main_arg21) by
    unwritten hostOps0 main_arg21).trans rfl

/-! ### At the first region's exit: the region owns none of these -/

theorem W2_arg10 (c : Dev nD) :
    W2 m ρ c (Proc.devRef .tc main_arg10) = m ((c : Thread nD τ).loc main_arg10) :=
  (W2_of_ne m ρ c main_arg10 (by decide)).trans (W1_arg10 m ρ c)
theorem W2_arg11 (c : Dev nD) :
    W2 m ρ c (Proc.devRef .tc main_arg11) = m ((c : Thread nD τ).loc main_arg11) :=
  (W2_of_ne m ρ c main_arg11 (by decide)).trans (W1_arg11 m ρ c)
theorem W2_arg12 (c : Dev nD) :
    W2 m ρ c (Proc.devRef .tc main_arg12) = m ((c : Thread nD τ).loc main_arg12) :=
  (W2_of_ne m ρ c main_arg12 (by decide)).trans (W1_arg12 m ρ c)
theorem W2_arg13 (c : Dev nD) :
    W2 m ρ c (Proc.devRef .tc main_arg13) = m ((c : Thread nD τ).loc main_arg13) :=
  (W2_of_ne m ρ c main_arg13 (by decide)).trans (W1_arg13 m ρ c)
theorem W2_arg14 (c : Dev nD) :
    W2 m ρ c (Proc.devRef .tc main_arg14) = m ((c : Thread nD τ).loc main_arg14) :=
  (W2_of_ne m ρ c main_arg14 (by decide)).trans (W1_arg14 m ρ c)
theorem W2_arg15 (c : Dev nD) :
    W2 m ρ c (Proc.devRef .tc main_arg15) = m ((c : Thread nD τ).loc main_arg15) :=
  (W2_of_ne m ρ c main_arg15 (by decide)).trans (W1_arg15 m ρ c)
theorem W2_arg16 (c : Dev nD) :
    W2 m ρ c (Proc.devRef .tc main_arg16) = m ((c : Thread nD τ).loc main_arg16) :=
  (W2_of_ne m ρ c main_arg16 (by decide)).trans (W1_arg16 m ρ c)
theorem W2_arg17 (c : Dev nD) :
    W2 m ρ c (Proc.devRef .tc main_arg17) = m ((c : Thread nD τ).loc main_arg17) :=
  (W2_of_ne m ρ c main_arg17 (by decide)).trans (W1_arg17 m ρ c)
theorem W2_arg18 (c : Dev nD) :
    W2 m ρ c (Proc.devRef .tc main_arg18) = m ((c : Thread nD τ).loc main_arg18) :=
  (W2_of_ne m ρ c main_arg18 (by decide)).trans (W1_arg18 m ρ c)
theorem W2_arg19 (c : Dev nD) :
    W2 m ρ c (Proc.devRef .tc main_arg19) = m ((c : Thread nD τ).loc main_arg19) :=
  (W2_of_ne m ρ c main_arg19 (by decide)).trans (W1_arg19 m ρ c)
theorem W2_arg20 (c : Dev nD) :
    W2 m ρ c (Proc.devRef .tc main_arg20) = m ((c : Thread nD τ).loc main_arg20) :=
  (W2_of_ne m ρ c main_arg20 (by decide)).trans (W1_arg20 m ρ c)
theorem W2_arg21 (c : Dev nD) :
    W2 m ρ c (Proc.devRef .tc main_arg21) = m ((c : Thread nD τ).loc main_arg21) :=
  (W2_of_ne m ρ c main_arg21 (by decide)).trans (W1_arg21 m ρ c)
theorem W2_v1 (c : Dev nD) :
    W2 m ρ c (Proc.devRef .tc main_v1) = W1 m ρ c (Proc.devRef .tc main_v1) :=
  W2_of_ne m ρ c main_v1 (by decide)
theorem W2_v3 (c : Dev nD) :
    W2 m ρ c (Proc.devRef .tc main_v3) = W1 m ρ c (Proc.devRef .tc main_v3) :=
  W2_of_ne m ρ c main_v3 (by decide)

/-! ### After the second stretch -/

theorem W3_arg10 (c : Dev nD) :
    W3 m ρ c (Proc.devRef .tc main_arg10) = m ((c : Thread nD τ).loc main_arg10) :=
  (show W3 m ρ c (Proc.devRef .tc main_arg10) = W2 m ρ c (Proc.devRef .tc main_arg10) by
    unwritten hostOps1 main_arg10).trans (W2_arg10 m ρ c)
theorem W3_arg16 (c : Dev nD) :
    W3 m ρ c (Proc.devRef .tc main_arg16) = m ((c : Thread nD τ).loc main_arg16) :=
  (show W3 m ρ c (Proc.devRef .tc main_arg16) = W2 m ρ c (Proc.devRef .tc main_arg16) by
    unwritten hostOps1 main_arg16).trans (W2_arg16 m ρ c)
theorem W3_arg18 (c : Dev nD) :
    W3 m ρ c (Proc.devRef .tc main_arg18) = m ((c : Thread nD τ).loc main_arg18) :=
  (show W3 m ρ c (Proc.devRef .tc main_arg18) = W2 m ρ c (Proc.devRef .tc main_arg18) by
    unwritten hostOps1 main_arg18).trans (W2_arg18 m ρ c)
theorem W3_arg19 (c : Dev nD) :
    W3 m ρ c (Proc.devRef .tc main_arg19) = m ((c : Thread nD τ).loc main_arg19) :=
  (show W3 m ρ c (Proc.devRef .tc main_arg19) = W2 m ρ c (Proc.devRef .tc main_arg19) by
    unwritten hostOps1 main_arg19).trans (W2_arg19 m ρ c)
theorem W3_arg20 (c : Dev nD) :
    W3 m ρ c (Proc.devRef .tc main_arg20) = m ((c : Thread nD τ).loc main_arg20) :=
  (show W3 m ρ c (Proc.devRef .tc main_arg20) = W2 m ρ c (Proc.devRef .tc main_arg20) by
    unwritten hostOps1 main_arg20).trans (W2_arg20 m ρ c)
theorem W3_arg21 (c : Dev nD) :
    W3 m ρ c (Proc.devRef .tc main_arg21) = m ((c : Thread nD τ).loc main_arg21) :=
  (show W3 m ρ c (Proc.devRef .tc main_arg21) = W2 m ρ c (Proc.devRef .tc main_arg21) by
    unwritten hostOps1 main_arg21).trans (W2_arg21 m ρ c)
theorem W3_v20 (c : Dev nD) :
    W3 m ρ c (Proc.devRef .tc main_v20) = W2 m ρ c (Proc.devRef .tc main_v20) := by
  unwritten hostOps1 main_v20

/-! ### At the second region's exit: the region owns none of these -/

theorem W4_arg18 (c : Dev nD) :
    W4 m ρ c (Proc.devRef .tc main_arg18) = m ((c : Thread nD τ).loc main_arg18) :=
  (W4_of_ne m ρ c main_arg18 (by decide)).trans (W3_arg18 m ρ c)
theorem W4_arg19 (c : Dev nD) :
    W4 m ρ c (Proc.devRef .tc main_arg19) = m ((c : Thread nD τ).loc main_arg19) :=
  (W4_of_ne m ρ c main_arg19 (by decide)).trans (W3_arg19 m ρ c)
theorem W4_arg20 (c : Dev nD) :
    W4 m ρ c (Proc.devRef .tc main_arg20) = m ((c : Thread nD τ).loc main_arg20) :=
  (W4_of_ne m ρ c main_arg20 (by decide)).trans (W3_arg20 m ρ c)
theorem W4_arg21 (c : Dev nD) :
    W4 m ρ c (Proc.devRef .tc main_arg21) = m ((c : Thread nD τ).loc main_arg21) :=
  (W4_of_ne m ρ c main_arg21 (by decide)).trans (W3_arg21 m ρ c)

/-! ### After the third stretch -/

theorem W5_arg18 (c : Dev nD) :
    W5 m ρ c (Proc.devRef .tc main_arg18) = m ((c : Thread nD τ).loc main_arg18) :=
  (show W5 m ρ c (Proc.devRef .tc main_arg18) = W4 m ρ c (Proc.devRef .tc main_arg18) by
    unwritten hostOps2 main_arg18).trans (W4_arg18 m ρ c)
theorem W5_arg20 (c : Dev nD) :
    W5 m ρ c (Proc.devRef .tc main_arg20) = m ((c : Thread nD τ).loc main_arg20) :=
  (show W5 m ρ c (Proc.devRef .tc main_arg20) = W4 m ρ c (Proc.devRef .tc main_arg20) by
    unwritten hostOps2 main_arg20).trans (W4_arg20 m ρ c)
theorem W5_v37 (c : Dev nD) :
    W5 m ρ c (Proc.devRef .tc main_v37) = W4 m ρ c (Proc.devRef .tc main_v37) := by
  unwritten hostOps2 main_v37

end Cert.KernelIdeal.FoldArgs

end
-- ==== Proof.Spec.lean ====
/-
  The network the two programs compute, on the extended reals, entry by entry.

  A node-feature matrix has one row per node. A dense layer sends a row x to x·w + b: entry (r, q) of the result is the
  sum over k of x(r, k)·w(k, q), plus b(q). The inference-time batch normalisation of a matrix h by per-column
  statistics sends entry (r, q) to (h(r, q) − mean(q)) · rsqrt(var(q) + ε) · gain(q) + shift(q), with ε the single
  precision word 0x3727C5AC. The rectifier sends an entry to its maximum with zero. One graph-isomorphism layer adds to
  each node's row the sum of its neighbours' rows, and passes the sum through dense, normalisation, rectifier, dense,
  rectifier; the head is dense, rectifier, dense. Every one of these maps treats the rows independently: row r of the
  result is a function of row r of the operand, which is why the rows may be computed tile by tile.
-/
import Idealize.ShloMosaic.PureOps.Ideal.Laws
import Idealize.ShloMosaic.Lib.ValueIdx

noncomputable section

namespace Cert.GinSpec

open Idealize.ShloMosaic Idealize.ShloMosaic.ValueIdx

/-- An extended-real matrix of the given extents, as a function of its index. -/
abbrev Mat (a b : Nat) := (⟨2, ![a, b]⟩ : Shape).Idx → EReal
/-- An extended-real vector. -/
abbrev Vct (n : Nat) := (⟨1, ![n]⟩ : Shape).Idx → EReal

/-- The normalisation's ε, the single-precision word nearest 1e-5, at its exact binary value. -/
abbrev eps : EReal := Ideal.ofBits .f32 0x3727C5AC#32
/-- The rectifier's zero. -/
abbrev zero : EReal := Ideal.ofBits .f32 0x00000000#32

/-- The dense layer x·w + b: entry (r, q) is the sum over k of x(r, k)·w(k, q), plus b(q). -/
def dense {R K N : Nat} (x : Mat R K) (w : Mat K N) (b : Vct N) : Mat R N :=
  fun i => (∑ k : Fin K, x (ix2 (i 0) k) * w (ix2 k (i 1))) + b (ix1 (i 1))

/-- Batch normalisation with fixed statistics: (h − mean)·rsqrt(var + ε)·gain + shift, column by column. -/
def bnorm {R N : Nat} (h : Mat R N) (gain shift mean var : Vct N) : Mat R N :=
  fun i => ((h i - mean (ix1 (i 1))) * Ideal.rsqrt (var (ix1 (i 1)) + eps)) * gain (ix1 (i 1)) + shift (ix1 (i 1))

/-- The rectifier, entry by entry. -/
def relu {R N : Nat} (h : Mat R N) : Mat R N := fun i => max (h i) zero

/-- The multilayer perceptron of one graph layer applied to the node rows plus their aggregated neighbours. -/
def ginMlp {R : Nat} (x agg : Mat R 128) (w1 : Mat 128 128) (b1 gain shift mean var : Vct 128) (w2 : Mat 128 128)
    (b2 : Vct 128) : Mat R 128 :=
  relu (dense (relu (bnorm (dense (fun i => x i + agg i) w1 b1) gain shift mean var)) w2 b2)

/-- The classification head: dense, rectifier, dense. -/
def head {R : Nat} (h : Mat R 128) (w5 : Mat 128 128) (b5 : Vct 128) (w6 : Mat 128 40) (b6 : Vct 40) : Mat R 40 :=
  dense (relu (dense h w5 b5)) w6 b6

theorem dense_apply {R K N : Nat} (x : Mat R K) (w : Mat K N) (b : Vct N) (r : Fin R) (q : Fin N) :
    dense x w b (ix2 r q) = (∑ k : Fin K, x (ix2 r k) * w (ix2 k q)) + b (ix1 q) := rfl

theorem bnorm_apply {R N : Nat} (h : Mat R N) (gain shift mean var : Vct N) (r : Fin R) (q : Fin N) :
    bnorm h gain shift mean var (ix2 r q)
      = ((h (ix2 r q) - mean (ix1 q)) * Ideal.rsqrt (var (ix1 q) + eps)) * gain (ix1 q) + shift (ix1 q) := rfl

theorem relu_apply {R N : Nat} (h : Mat R N) (r : Fin R) (q : Fin N) : relu h (ix2 r q) = max (h (ix2 r q)) zero := rfl

/-- A dense layer reads only the operand's row: two operands that agree on row r give results that agree there. -/
theorem dense_row {R R' K N : Nat} (x : Mat R K) (x' : Mat R' K) (w : Mat K N) (b : Vct N) (r : Fin R) (r' : Fin R')
    (h : ∀ k, x (ix2 r k) = x' (ix2 r' k)) (q : Fin N) : dense x w b (ix2 r q) = dense x' w b (ix2 r' q) := by
  rw [dense_apply, dense_apply]
  exact congrArg (· + b (ix1 q)) (Finset.sum_congr rfl fun k _ => by rw [h k])

end Cert.GinSpec

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.KernelRows.lean ====
/-
  One row of a tile against one row of the whole batch.

  The kernels work on tiles of 5000 node rows. Every step of the perceptron treats rows independently, so a step
  applied to a tile, read at row p of the tile, is the same step applied to the whole batch read at row r, as soon as
  row p of the tile's operand is row r of the batch's operand. Here that is shown step by step: the matrix product
  into the zero accumulator with the bias row broadcast down the tile is the dense layer; subtracting the mean row,
  multiplying by the reciprocal square root of the variance row plus ε and by the gain row, adding the shift row and
  taking the maximum with zero is the normalisation followed by the rectifier. The parameter rows are 1 × n matrices
  whose entry (0, q) is entry q of the parameter vector.
-/
import proofs.«103206_j32908039422341_1_alg».proof.Proof.Gen.KernelIdeal.Skeleton
import proofs.«103206_j32908039422341_1_alg».proof.Proof.Spec
import proofs.«103206_j32908039422341_1_alg».proof.Proof.LibMatmulRowsByCols
import proofs.«103206_j32908039422341_1_alg».proof.Proof.LibOneRowMatrix
import Idealize.ShloMosaic.Lib.Pipeline.Value

noncomputable section

namespace Cert.KernelIdeal.Rows

open Cert.KernelIdeal Cert.KernelIdeal.Gen Cert.GinSpec
open Idealize.ShloMosaic Idealize.ShloMosaic.ValueIdx

/-- The contraction of a 5000 × 128 tile with a 128 × 128 weight. -/
abbrev D128 : DotDims S5000x128 S128x128 S5000x128 := dot_S5000x128_S128x128_S5000x128_1_0_0_1_n_n
/-- The contraction of a 5000 × 128 tile with the 128 × 40 weight. -/
abbrev D40 : DotDims S5000x128 S128x40 S5000x40 := dot_S5000x128_S128x40_S5000x40_1_0_0_1_n_n

theorem d128_l0 (i : S5000x128.Idx) (q : D128.contr.Idx) : (D128.lhsIdx i q 0).val = (i 0).val := by
  unfold DotDims.lhsIdx
  rw [dif_neg (show ¬(0 : Fin S5000x128.rank) ∈ D128.lhsBatch by decide), dif_pos (show (0 : Fin S5000x128.rank) ∈ D128.lhsNonContracting by decide)]
  rfl
theorem d128_l1 (i : S5000x128.Idx) (q : D128.contr.Idx) : (D128.lhsIdx i q 1).val = (q ⟨0, by decide⟩).val :=
  D128.lhsIdx_val_of_single rfl i q
theorem d128_r0 (i : S5000x128.Idx) (q : D128.contr.Idx) : (D128.rhsIdx i q 0).val = (q ⟨0, by decide⟩).val :=
  D128.rhsIdx_val_of_single rfl i q
theorem d128_r1 (i : S5000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

theorem d40_l0 (i : S5000x40.Idx) (q : D40.contr.Idx) : (D40.lhsIdx i q 0).val = (i 0).val := by
  unfold DotDims.lhsIdx
  rw [dif_neg (show ¬(0 : Fin S5000x128.rank) ∈ D40.lhsBatch by decide), dif_pos (show (0 : Fin S5000x128.rank) ∈ D40.lhsNonContracting by decide)]
  rfl
theorem d40_l1 (i : S5000x40.Idx) (q : D40.contr.Idx) : (D40.lhsIdx i q 1).val = (q ⟨0, by decide⟩).val :=
  D40.lhsIdx_val_of_single rfl i q
theorem d40_r0 (i : S5000x40.Idx) (q : D40.contr.Idx) : (D40.rhsIdx i q 0).val = (q ⟨0, by decide⟩).val :=
  D40.rhsIdx_val_of_single rfl i q
theorem d40_r1 (i : S5000x40.Idx) (q : D40.contr.Idx) : (D40.rhsIdx i q 1).val = (i 1).val := by
  unfold DotDims.rhsIdx
  rw [dif_neg (show ¬(1 : Fin S128x40.rank) ∈ D40.rhsBatch by decide), dif_pos (show (1 : Fin S128x40.rank) ∈ D40.rhsNonContracting by decide)]
  rfl

/-- The tile's product with a square weight, entry (p, q): the sum over k of l(p, k)·r(k, q). -/
theorem matmul128_apply (l : FVec Ideal S5000x128 .f32) (r : FVec Ideal S128x128 .f32) (p : Fin 5000) (q : Fin 128) :
    matmul D128 (some .fp32) l r (constant (F := Ideal) S5000x128 .f32 0x00000000#32) (ix2 p q)
      = ∑ k : Fin 128, l (ix2 p k) * r (ix2 k q) :=
  MatmulRowsByCols.matmul_zero_apply D128 rfl rfl d128_l0 d128_l1 d128_r0 d128_r1 (some .fp32) l r p q

/-- The tile's product with the 128 × 40 weight, entry (p, q). -/
theorem matmul40_apply (l : FVec Ideal S5000x128 .f32) (r : FVec Ideal S128x40 .f32) (p : Fin 5000) (q : Fin 40) :
    matmul D40 (some .fp32) l r (constant (F := Ideal) S5000x40 .f32 0x00000000#32) (ix2 p q)
      = ∑ k : Fin 128, l (ix2 p k) * r (ix2 k q) :=
  MatmulRowsByCols.matmul_zero_apply D40 rfl rfl d40_l0 d40_l1 d40_r0 d40_r1 (some .fp32) l r p q

/-- The dense step on a tile, at row p, is the dense layer of the batch at row r. -/
theorem dense_tile (a : FVec Ideal S5000x128 .f32) (w : FVec Ideal S128x128 .f32) (b : FVec Ideal S1x128 .f32)
    (A : Mat 50000 128) (B : Vct 128) (p : Fin 5000) (r : Fin 50000)
    (ha : ∀ k, a (ix2 p k) = A (ix2 r k)) (hb : ∀ q, b (ix2 0 q) = B (ix1 q)) (q : Fin 128) :
    addf (matmul D128 (some .fp32) a w (constant (F := Ideal) S5000x128 .f32 0x00000000#32))
        (broadcastTo S5000x128 b broadcasts_S1x128_S5000x128) (ix2 p q)
      = dense A w B (ix2 r q) := by
  rw [addf_apply, matmul128_apply, OneRowMatrix.broadcast_row_apply, dense_apply, hb]
  exact congrArg (· + B (ix1 q)) (Finset.sum_congr rfl fun k _ => by rw [ha k])

/-- The last dense step (40 classes) on a tile, at row p. -/
theorem dense40_tile (a : FVec Ideal S5000x128 .f32) (w : FVec Ideal S128x40 .f32) (b : FVec Ideal S1x40 .f32)
    (A : Mat 50000 128) (B : Vct 40) (p : Fin 5000) (r : Fin 50000)
    (ha : ∀ k, a (ix2 p k) = A (ix2 r k)) (hb : ∀ q, b (ix2 0 q) = B (ix1 q)) (q : Fin 40) :
    addf (matmul D40 (some .fp32) a w (constant (F := Ideal) S5000x40 .f32 0x00000000#32))
        (broadcastTo S5000x40 b broadcasts_S1x40_S5000x40) (ix2 p q)
      = dense A w B (ix2 r q) := by
  rw [addf_apply, matmul40_apply, OneRowMatrix.broadcast_row_apply, dense_apply, hb]
  exact congrArg (· + B (ix1 q)) (Finset.sum_congr rfl fun k _ => by rw [ha k])

/-- Normalisation and rectifier on a tile, at entry (p, k), are those of the batch at (r, k). -/
theorem bn_relu_tile (h : FVec Ideal S5000x128 .f32) (g bb mm vv : FVec Ideal S1x128 .f32)
    (H : Mat 50000 128) (G BB MM VV : Vct 128) (p : Fin 5000) (r : Fin 50000) (k : Fin 128)
    (hh : h (ix2 p k) = H (ix2 r k)) (hg : ∀ q, g (ix2 0 q) = G (ix1 q)) (hbb : ∀ q, bb (ix2 0 q) = BB (ix1 q))
    (hmm : ∀ q, mm (ix2 0 q) = MM (ix1 q)) (hvv : ∀ q, vv (ix2 0 q) = VV (ix1 q)) :
    maximumf (addf (mulf (mulf (subf h (broadcastTo S5000x128 mm broadcasts_S1x128_S5000x128))
        (broadcastTo S5000x128 (rsqrt (addf vv (broadcast S1x128 (Scalar.ofBits (F := Ideal) .f32 0x3727C5AC#32)))) broadcasts_S1x128_S5000x128))
        (broadcastTo S5000x128 g broadcasts_S1x128_S5000x128)) (broadcastTo S5000x128 bb broadcasts_S1x128_S5000x128))
        (broadcast S5000x128 (Scalar.ofBits (F := Ideal) .f32 0x00000000#32)) (ix2 p k)
      = relu (bnorm H G BB MM VV) (ix2 r k) := by
  rw [relu_apply, bnorm_apply, maximumf_apply, addf_apply, mulf_apply, mulf_apply, subf_apply,
    OneRowMatrix.broadcast_row_apply, OneRowMatrix.broadcast_row_apply, OneRowMatrix.broadcast_row_apply,
    OneRowMatrix.broadcast_row_apply, hh, hg, hbb, hmm]
  show max (((H (ix2 r k) - MM (ix1 k)) * Ideal.rsqrt (vv (ix2 0 k) + eps)) * G (ix1 k) + BB (ix1 k)) zero = _
  rw [hvv]

end Cert.KernelIdeal.Rows

end
-- ==== Proof.KernelTiles.lean ====
/-
  What each kernel stores, one entry at a time.

  The value a kernel stores for its tile is a pure function of the tiles and parameter blocks it loaded. Read at entry
  (p, q) of the tile, the two perceptron kernels give the perceptron of the whole batch at entry (r, q), and the head
  kernel gives the head of the whole batch there, whenever row p of each loaded tile is row r of the corresponding
  batch matrix and each loaded parameter row is the parameter vector laid out as a 1 × n matrix.
-/
import proofs.«103206_j32908039422341_1_alg».proof.Proof.KernelRows

noncomputable section

namespace Cert.KernelIdeal.Tiles

open Cert.KernelIdeal Cert.KernelIdeal.Gen Cert.KernelIdeal.Rows Cert.GinSpec
open Idealize.ShloMosaic Idealize.ShloMosaic.ValueIdx

/-- The first perceptron kernel's stored value at (p, q) is the batch's perceptron at (r, q). -/
theorem mlp_tile0 (x0 x1 : Vec Ideal S5000x128 .f32) (w1 : Vec Ideal S128x128 .f32) (b1 mm vv g bb : Vec Ideal S1x128 .f32)
    (w2 : Vec Ideal S128x128 .f32) (b2 : Vec Ideal S1x128 .f32)
    (X AGG : Mat 50000 128) (B1 G BB MM VV B2 : Vct 128) (p : Fin 5000) (r : Fin 50000)
    (hx : ∀ k, x0 (ix2 p k) = X (ix2 r k)) (hagg : ∀ k, x1 (ix2 p k) = AGG (ix2 r k))
    (hb1 : ∀ q, b1 (ix2 0 q) = B1 (ix1 q)) (hmm : ∀ q, mm (ix2 0 q) = MM (ix1 q)) (hvv : ∀ q, vv (ix2 0 q) = VV (ix1 q))
    (hg : ∀ q, g (ix2 0 q) = G (ix1 q)) (hbb : ∀ q, bb (ix2 0 q) = BB (ix1 q)) (hb2 : ∀ q, b2 (ix2 0 q) = B2 (ix1 q))
    (q : Fin 128) :
    k0_pay1 (k0_pay2 x0 x1 w1 b1 mm vv g bb w2) (k0_pay3 b2) (ix2 p q)
      = ginMlp X AGG w1 B1 G BB MM VV w2 B2 (ix2 r q) := by
  unfold k0_pay1 k0_pay2 k0_pay3 ginMlp
  simp only [shapeCast_self]
  refine (maximumf_apply _ _ _).trans ?_
  refine (congrArg (max · zero) ?_).trans (relu_apply _ r q).symm
  refine dense_tile _ w2 b2 _ B2 p r (fun k => ?_) hb2 q
  refine bn_relu_tile _ g bb mm vv _ G BB MM VV p r k ?_ hg hbb hmm hvv
  refine dense_tile _ w1 b1 _ B1 p r (fun l => ?_) hb1 k
  show x0 (ix2 p l) + x1 (ix2 p l) = X (ix2 r l) + AGG (ix2 r l)
  rw [hx, hagg]

/-- The second perceptron kernel's stored value at (p, q) is the batch's perceptron at (r, q). -/
theorem mlp_tile1 (x0 x1 : Vec Ideal S5000x128 .f32) (w1 : Vec Ideal S128x128 .f32) (b1 mm vv g bb : Vec Ideal S1x128 .f32)
    (w2 : Vec Ideal S128x128 .f32) (b2 : Vec Ideal S1x128 .f32)
    (X AGG : Mat 50000 128) (B1 G BB MM VV B2 : Vct 128) (p : Fin 5000) (r : Fin 50000)
    (hx : ∀ k, x0 (ix2 p k) = X (ix2 r k)) (hagg : ∀ k, x1 (ix2 p k) = AGG (ix2 r k))
    (hb1 : ∀ q, b1 (ix2 0 q) = B1 (ix1 q)) (hmm : ∀ q, mm (ix2 0 q) = MM (ix1 q)) (hvv : ∀ q, vv (ix2 0 q) = VV (ix1 q))
    (hg : ∀ q, g (ix2 0 q) = G (ix1 q)) (hbb : ∀ q, bb (ix2 0 q) = BB (ix1 q)) (hb2 : ∀ q, b2 (ix2 0 q) = B2 (ix1 q))
    (q : Fin 128) :
    k1_pay1 (k1_pay2 x0 x1 w1 b1 mm vv g bb w2) b2 (ix2 p q)
      = ginMlp X AGG w1 B1 G BB MM VV w2 B2 (ix2 r q) := by
  unfold k1_pay1 k1_pay2 ginMlp
  simp only [shapeCast_self]
  refine (maximumf_apply _ _ _).trans ?_
  refine (congrArg (max · zero) ?_).trans (relu_apply _ r q).symm
  refine dense_tile _ w2 b2 _ B2 p r (fun k => ?_) hb2 q
  refine bn_relu_tile _ g bb mm vv _ G BB MM VV p r k ?_ hg hbb hmm hvv
  refine dense_tile _ w1 b1 _ B1 p r (fun l => ?_) hb1 k
  show x0 (ix2 p l) + x1 (ix2 p l) = X (ix2 r l) + AGG (ix2 r l)
  rw [hx, hagg]

/-- The head kernel's stored value at (p, q) is the batch's head at (r, q). -/
theorem head_tile (x0 : Vec Ideal S5000x128 .f32) (w5 : Vec Ideal S128x128 .f32) (b5 : Vec Ideal S1x128 .f32)
    (w6 : Vec Ideal S128x40 .f32) (b6 : Vec Ideal S1x40 .f32)
    (H : Mat 50000 128) (B5 : Vct 128) (B6 : Vct 40) (p : Fin 5000) (r : Fin 50000)
    (hx : ∀ k, x0 (ix2 p k) = H (ix2 r k)) (hb5 : ∀ q, b5 (ix2 0 q) = B5 (ix1 q)) (hb6 : ∀ q, b6 (ix2 0 q) = B6 (ix1 q))
    (q : Fin 40) :
    k2_pay1 x0 w5 b5 w6 b6 (ix2 p q) = head H w5 B5 w6 B6 (ix2 r q) := by
  unfold k2_pay1 head
  simp only [shapeCast_self]
  refine dense40_tile _ w6 b6 _ B6 p r (fun k => ?_) hb6 q
  refine (maximumf_apply _ _ _).trans ?_
  refine (congrArg (max · zero) ?_).trans (relu_apply _ r k).symm
  exact dense_tile _ w5 b5 _ B5 p r hx hb5 k

end Cert.KernelIdeal.Tiles

end
-- ==== Proof.KernelRegion0.lean ====
/-
  The first perceptron region, as one function of the arrays it is entered with.

  The region runs its kernel at ten grid points. At point t the two moving windows hold rows 5000·t … 5000·t + 4999 of
  the node matrix and of the aggregated-neighbour matrix, the parameter windows hold their whole arrays, and the
  kernel's stored tile is written back to the same rows of the result. The ten row blocks tile the 50000 rows, so the
  result array ends holding, entry by entry, the perceptron of the whole batch: a function of the arrays as the region
  finds them.
-/
import proofs.«103206_j32908039422341_1_alg».proof.Proof.Gen.KernelIdeal.Frame
import proofs.«103206_j32908039422341_1_alg».proof.Proof.KernelTiles
import Idealize.ShloMosaic.Lib.Pipeline.Value
import Idealize.ShloMosaic.Lib.Tactic

set_option maxRecDepth 16384

noncomputable section

namespace Cert.KernelIdeal.Region0

open Cert.KernelIdeal Cert.KernelIdeal.Gen Cert.KernelIdeal.Tiles Cert.GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two moving inputs and the output sit at row block t, every
    parameter window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Row p of tile t is row 5000·t + p of the batch. -/
def row (t : Fin cfg0.N) (p : Fin 5000) : Fin 50000 :=
  ⟨t.val * 5000 + p.val, by have h : t.val < 10 := lt_of_lt_of_eq t.isLt N_0; have := p.isLt; omega⟩

/-- Window 0's block at grid point t holds rows 5000·t … 5000·t + 4999 of its array. -/
theorem blk_0 (c : Dev nD) (t : Fin cfg0.N) (p : Fin 5000) (k : Fin 128) :
    (iblk0 V c 0 t : Vec Ideal S5000x128 .f32) (ix2 p k) = (V c main_arg0 : Mat 50000 128) (ix2 (row t p) k) := by
  obtain ⟨e00, e01, e10, e11, e20, e21, e30, e31, e40, e41, e50, e51, e60, e61, e70, e71, e80, e81, e90, e91, eo0, eo1⟩ := idx_facts t
  unfold iblk0
  rw [View.read_apply]
  show V c main_arg0 _ = V c main_arg0 _
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1's block at grid point t holds rows 5000·t … 5000·t + 4999 of its array. -/
theorem blk_1 (c : Dev nD) (t : Fin cfg0.N) (p : Fin 5000) (k : Fin 128) :
    (iblk0 V c 1 t : Vec Ideal S5000x128 .f32) (ix2 p k) = (V c main_v13 : Mat 50000 128) (ix2 (row t p) k) := by
  obtain ⟨e00, e01, e10, e11, e20, e21, e30, e31, e40, e41, e50, e51, e60, e61, e70, e71, e80, e81, e90, e91, eo0, eo1⟩ := idx_facts t
  unfold iblk0
  rw [View.read_apply]
  show V c main_v13 _ = V c main_v13 _
  congr 1
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- Window 2 is the whole 128 × 128 weight at every grid point. -/
theorem blk_2 (c : Dev nD) (t : Fin cfg0.N) :
    (iblk0 V c 2 t : Vec Ideal S128x128 .f32) = (V c main_arg2 : S128x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_arg2 _ = V c main_arg2 y
  congr 1
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 is the whole one-row parameter at every grid point. -/
theorem blk_3 (c : Dev nD) (t : Fin cfg0.N) :
    (iblk0 V c 3 t : Vec Ideal S1x128 .f32) = (V c main_v14 : S1x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_v14 _ = V c main_v14 y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 is the whole one-row parameter at every grid point. -/
theorem blk_4 (c : Dev nD) (t : Fin cfg0.N) :
    (iblk0 V c 4 t : Vec Ideal S1x128 .f32) = (V c main_v15 : S1x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_v15 _ = V c main_v15 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 is the whole one-row parameter at every grid point. -/
theorem blk_5 (c : Dev nD) (t : Fin cfg0.N) :
    (iblk0 V c 5 t : Vec Ideal S1x128 .f32) = (V c main_v16 : S1x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_v16 _ = V c main_v16 y
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 is the whole one-row parameter at every grid point. -/
theorem blk_6 (c : Dev nD) (t : Fin cfg0.N) :
    (iblk0 V c 6 t : Vec Ideal S1x128 .f32) = (V c main_v17 : S1x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_v17 _ = V c main_v17 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 is the whole one-row parameter at every grid point. -/
theorem blk_7 (c : Dev nD) (t : Fin cfg0.N) :
    (iblk0 V c 7 t : Vec Ideal S1x128 .f32) = (V c main_v18 : S1x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_v18 _ = V c main_v18 y
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8 is the whole 128 × 128 weight at every grid point. -/
theorem blk_8 (c : Dev nD) (t : Fin cfg0.N) :
    (iblk0 V c 8 t : Vec Ideal S128x128 .f32) = (V c main_arg8 : S128x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_arg8 _ = V c main_arg8 y
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9 is the whole one-row parameter at every grid point. -/
theorem blk_9 (c : Dev nD) (t : Fin cfg0.N) :
    (iblk0 V c 9 t : Vec Ideal S1x128 .f32) = (V c main_v19 : S1x128.Idx → EReal) := by
  funext y
  obtain ⟨e00, e01, e10, e11, e20, e21, e30, e31, e40, e41, e50, e51, e60, e61, e70, e71, e80, e81, e90, e91, eo0, eo1⟩ := idx_facts t
  unfold iblk0
  rw [View.read_apply]
  show V c main_v19 _ = V c main_v19 y
  congr 1
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- What point t writes back is block t of the batch's perceptron. -/
theorem flushed_eq (c : Dev nD) (B1 G BB MM VV B2 : Vct 128)
    (hb1 : ∀ q, (V c main_v14 : S1x128.Idx → EReal) (ix2 0 q) = B1 (ix1 q))
    (hg : ∀ q, (V c main_v15 : S1x128.Idx → EReal) (ix2 0 q) = G (ix1 q))
    (hbb : ∀ q, (V c main_v16 : S1x128.Idx → EReal) (ix2 0 q) = BB (ix1 q))
    (hmm : ∀ q, (V c main_v17 : S1x128.Idx → EReal) (ix2 0 q) = MM (ix1 q))
    (hvv : ∀ q, (V c main_v18 : S1x128.Idx → EReal) (ix2 0 q) = VV (ix1 q))
    (hb2 : ∀ q, (V c main_v19 : S1x128.Idx → EReal) (ix2 0 q) = B2 (ix1 q))
    (t : Fin cfg0.N) :
    (dat0 V c).flushed 10 t = ((cfg0.win 10).blk t).view.read (Elt Ideal)
      (ginMlp (V c main_arg0) (V c main_v13) (V c main_arg2) B1 G BB MM VV (V c main_arg8) B2) := by
  show (cfg0.win 10).cut (grid0.coords t) ((dat0 V c).after 10 t) = _
  rw [after0_10]
  unfold out0_10
  rw [View.canon_unit_zero hz]
  simp only [View.ld_unit_zero (S := S5000x128) hz, View.ld_unit_zero (S := S128x128) hz, View.ld_unit_zero (S := S1x128) hz]
  rw [blk_2 V c t, blk_3 V c t, blk_4 V c t, blk_5 V c t, blk_6 V c t, blk_7 V c t, blk_8 V c t, blk_9 V c t]
  funext j
  obtain ⟨p, q, rfl⟩ : ∃ (p : Fin 5000) (q : Fin 128), j = ix2 p q := ⟨j 0, j 1, eq_ix2 j⟩
  obtain ⟨e00, e01, e10, e11, e20, e21, e30, e31, e40, e41, e50, e51, e60, e61, e70, e71, e80, e81, e90, e91, eo0, eo1⟩ := idx_facts t
  refine (mlp_tile0 (iblk0 V c 0 t) (iblk0 V c 1 t) (V c main_arg2) (V c main_v14) (V c main_v17) (V c main_v18) (V c main_v15) (V c main_v16) (V c main_arg8) (V c main_v19)
    (V c main_arg0) (V c main_v13) B1 G BB MM VV B2 p (row t p) (fun k => blk_0 V c t p k) (fun k => blk_1 V c t p k) hb1 hmm hvv hg hbb hb2 q).trans ?_
  rw [View.read_apply]
  congr 1
  funext a; apply Fin.ext
  match a with
  | ⟨0, _⟩ => show t.val * 5000 + p.val = win0_10.index t (0 : Fin 2) * 5000 + 1 * p.val; omega
  | ⟨1, _⟩ => show q.val = win0_10.index t (1 : Fin 2) * 128 + 1 * q.val; omega

/-- An index of the result lies in point t's block exactly when its row is among that tile's rows. -/
theorem mem_blk (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v20).slice (win0_10.rect t)).set ↔ _
  rw [View.set_slice_whole, Rect.mem_set_unit]
  exact Iff.rfl

/-- The result array after the region: the perceptron of the batch. -/
theorem final (c : Dev nD) (B1 G BB MM VV B2 : Vct 128)
    (hb1 : ∀ q, (V c main_v14 : S1x128.Idx → EReal) (ix2 0 q) = B1 (ix1 q))
    (hg : ∀ q, (V c main_v15 : S1x128.Idx → EReal) (ix2 0 q) = G (ix1 q))
    (hbb : ∀ q, (V c main_v16 : S1x128.Idx → EReal) (ix2 0 q) = BB (ix1 q))
    (hmm : ∀ q, (V c main_v17 : S1x128.Idx → EReal) (ix2 0 q) = MM (ix1 q))
    (hvv : ∀ q, (V c main_v18 : S1x128.Idx → EReal) (ix2 0 q) = VV (ix1 q))
    (hb2 : ∀ q, (V c main_v19 : S1x128.Idx → EReal) (ix2 0 q) = B2 (ix1 q)) :
    (dat0 V c).arrAt 10 cfg0.N = ginMlp (V c main_arg0) (V c main_v13) (V c main_arg2) B1 G BB MM VV (V c main_arg8) B2 :=
  (dat0 V c).arrAt_eq_of_cover 10 _ (fun t _ => flushed_eq V c B1 G BB MM VV B2 hb1 hg hbb hmm hvv hb2 t) fun i => by
    have hi0 : (i 0).val < 50000 := (i 0).isLt
    have hi1 : (i 1).val < 128 := (i 1).isLt
    have hN : cfg0.N = 10 := N_0
    refine ⟨⟨(i 0).val / 5000, by rw [hN]; omega⟩, flush0_10 _, ?_⟩
    rw [mem_blk]
    obtain ⟨e00, e01, e10, e11, e20, e21, e30, e31, e40, e41, e50, e51, e60, e61, e70, e71, e80, e81, e90, e91, eo0, eo1⟩ := idx_facts ⟨(i 0).val / 5000, by rw [hN]; omega⟩
    intro a
    match a with
    | ⟨0, _⟩ => show win0_10.index _ (0 : Fin 2) * 5000 ≤ (i 0).val ∧ (i 0).val < win0_10.index _ (0 : Fin 2) * 5000 + 5000; rw [eo0]; show (i 0).val / 5000 * 5000 ≤ (i 0).val ∧ (i 0).val < (i 0).val / 5000 * 5000 + 5000; omega
    | ⟨1, _⟩ => show win0_10.index _ (1 : Fin 2) * 128 ≤ (i 1).val ∧ (i 1).val < win0_10.index _ (1 : Fin 2) * 128 + 128; rw [eo1]; omega

end Cert.KernelIdeal.Region0

end
-- ==== Proof.KernelRegion1.lean ====
/-
  The second perceptron region, as one function of the arrays it is entered with.

  The region runs its kernel at ten grid points. At point t the two moving windows hold rows 5000·t … 5000·t + 4999 of
  the node matrix and of the aggregated-neighbour matrix, the parameter windows hold their whole arrays, and the
  kernel's stored tile is written back to the same rows of the result. The ten row blocks tile the 50000 rows, so the
  result array ends holding, entry by entry, the perceptron of the whole batch: a function of the arrays as the region
  finds them.
-/
import proofs.«103206_j32908039422341_1_alg».proof.Proof.Gen.KernelIdeal.Frame
import proofs.«103206_j32908039422341_1_alg».proof.Proof.KernelTiles
import Idealize.ShloMosaic.Lib.Pipeline.Value
import Idealize.ShloMosaic.Lib.Tactic

set_option maxRecDepth 16384

noncomputable section

namespace Cert.KernelIdeal.Region1

open Cert.KernelIdeal Cert.KernelIdeal.Gen Cert.KernelIdeal.Tiles Cert.GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two moving inputs and the output sit at row block t, every
    parameter window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row p of tile t is row 5000·t + p of the batch. -/
def row (t : Fin cfg1.N) (p : Fin 5000) : Fin 50000 :=
  ⟨t.val * 5000 + p.val, by have h : t.val < 10 := lt_of_lt_of_eq t.isLt N_1; have := p.isLt; omega⟩

/-- Window 0's block at grid point t holds rows 5000·t … 5000·t + 4999 of its array. -/
theorem blk_0 (c : Dev nD) (t : Fin cfg1.N) (p : Fin 5000) (k : Fin 128) :
    (iblk1 V c 0 t : Vec Ideal S5000x128 .f32) (ix2 p k) = (V c main_v20 : Mat 50000 128) (ix2 (row t p) k) := by
  obtain ⟨e00, e01, e10, e11, e20, e21, e30, e31, e40, e41, e50, e51, e60, e61, e70, e71, e80, e81, e90, e91, eo0, eo1⟩ := idx_facts t
  unfold iblk1
  rw [View.read_apply]
  show V c main_v20 _ = V c main_v20 _
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1's block at grid point t holds rows 5000·t … 5000·t + 4999 of its array. -/
theorem blk_1 (c : Dev nD) (t : Fin cfg1.N) (p : Fin 5000) (k : Fin 128) :
    (iblk1 V c 1 t : Vec Ideal S5000x128 .f32) (ix2 p k) = (V c main_v30 : Mat 50000 128) (ix2 (row t p) k) := by
  obtain ⟨e00, e01, e10, e11, e20, e21, e30, e31, e40, e41, e50, e51, e60, e61, e70, e71, e80, e81, e90, e91, eo0, eo1⟩ := idx_facts t
  unfold iblk1
  rw [View.read_apply]
  show V c main_v30 _ = V c main_v30 _
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2 is the whole 128 × 128 weight at every grid point. -/
theorem blk_2 (c : Dev nD) (t : Fin cfg1.N) :
    (iblk1 V c 2 t : Vec Ideal S128x128 .f32) = (V c main_arg10 : S128x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_arg10 _ = V c main_arg10 y
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 is the whole one-row parameter at every grid point. -/
theorem blk_3 (c : Dev nD) (t : Fin cfg1.N) :
    (iblk1 V c 3 t : Vec Ideal S1x128 .f32) = (V c main_v31 : S1x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_v31 _ = V c main_v31 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 is the whole one-row parameter at every grid point. -/
theorem blk_4 (c : Dev nD) (t : Fin cfg1.N) :
    (iblk1 V c 4 t : Vec Ideal S1x128 .f32) = (V c main_v32 : S1x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_v32 _ = V c main_v32 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5 is the whole one-row parameter at every grid point. -/
theorem blk_5 (c : Dev nD) (t : Fin cfg1.N) :
    (iblk1 V c 5 t : Vec Ideal S1x128 .f32) = (V c main_v33 : S1x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_v33 _ = V c main_v33 y
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6 is the whole one-row parameter at every grid point. -/
theorem blk_6 (c : Dev nD) (t : Fin cfg1.N) :
    (iblk1 V c 6 t : Vec Ideal S1x128 .f32) = (V c main_v34 : S1x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_v34 _ = V c main_v34 y
  congr 1
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7 is the whole one-row parameter at every grid point. -/
theorem blk_7 (c : Dev nD) (t : Fin cfg1.N) :
    (iblk1 V c 7 t : Vec Ideal S1x128 .f32) = (V c main_v35 : S1x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_v35 _ = V c main_v35 y
  congr 1
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8 is the whole 128 × 128 weight at every grid point. -/
theorem blk_8 (c : Dev nD) (t : Fin cfg1.N) :
    (iblk1 V c 8 t : Vec Ideal S128x128 .f32) = (V c main_arg16 : S128x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_arg16 _ = V c main_arg16 y
  congr 1
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Window 9 is the whole one-row parameter at every grid point. -/
theorem blk_9 (c : Dev nD) (t : Fin cfg1.N) :
    (iblk1 V c 9 t : Vec Ideal S1x128 .f32) = (V c main_v36 : S1x128.Idx → EReal) := by
  funext y
  obtain ⟨e00, e01, e10, e11, e20, e21, e30, e31, e40, e41, e50, e51, e60, e61, e70, e71, e80, e81, e90, e91, eo0, eo1⟩ := idx_facts t
  unfold iblk1
  rw [View.read_apply]
  show V c main_v36 _ = V c main_v36 y
  congr 1
  funext a; apply Fin.ext
  match a with
  | ⟨0, _⟩ => show win1_9.index t (0 : Fin 2) * 1 + 1 * (y 0).val = (y 0).val; omega
  | ⟨1, _⟩ => show win1_9.index t (1 : Fin 2) * 128 + 1 * (y 1).val = (y 1).val; omega

/-- What point t writes back is block t of the batch's perceptron. -/
theorem flushed_eq (c : Dev nD) (B1 G BB MM VV B2 : Vct 128)
    (hb1 : ∀ q, (V c main_v31 : S1x128.Idx → EReal) (ix2 0 q) = B1 (ix1 q))
    (hg : ∀ q, (V c main_v32 : S1x128.Idx → EReal) (ix2 0 q) = G (ix1 q))
    (hbb : ∀ q, (V c main_v33 : S1x128.Idx → EReal) (ix2 0 q) = BB (ix1 q))
    (hmm : ∀ q, (V c main_v34 : S1x128.Idx → EReal) (ix2 0 q) = MM (ix1 q))
    (hvv : ∀ q, (V c main_v35 : S1x128.Idx → EReal) (ix2 0 q) = VV (ix1 q))
    (hb2 : ∀ q, (V c main_v36 : S1x128.Idx → EReal) (ix2 0 q) = B2 (ix1 q))
    (t : Fin cfg1.N) :
    (dat1 V c).flushed 10 t = ((cfg1.win 10).blk t).view.read (Elt Ideal)
      (ginMlp (V c main_v20) (V c main_v30) (V c main_arg10) B1 G BB MM VV (V c main_arg16) B2) := by
  show (cfg1.win 10).cut (grid1.coords t) ((dat1 V c).after 10 t) = _
  rw [after1_10]
  unfold out1_10
  rw [View.canon_unit_zero hz]
  simp only [View.ld_unit_zero (S := S5000x128) hz, View.ld_unit_zero (S := S128x128) hz, View.ld_unit_zero (S := S1x128) hz]
  rw [blk_2 V c t, blk_3 V c t, blk_4 V c t, blk_5 V c t, blk_6 V c t, blk_7 V c t, blk_8 V c t, blk_9 V c t]
  funext j
  obtain ⟨p, q, rfl⟩ : ∃ (p : Fin 5000) (q : Fin 128), j = ix2 p q := ⟨j 0, j 1, eq_ix2 j⟩
  obtain ⟨e00, e01, e10, e11, e20, e21, e30, e31, e40, e41, e50, e51, e60, e61, e70, e71, e80, e81, e90, e91, eo0, eo1⟩ := idx_facts t
  refine (mlp_tile1 (iblk1 V c 0 t) (iblk1 V c 1 t) (V c main_arg10) (V c main_v31) (V c main_v34) (V c main_v35) (V c main_v32) (V c main_v33) (V c main_arg16) (V c main_v36)
    (V c main_v20) (V c main_v30) B1 G BB MM VV B2 p (row t p) (fun k => blk_0 V c t p k) (fun k => blk_1 V c t p k) hb1 hmm hvv hg hbb hb2 q).trans ?_
  rw [View.read_apply]
  congr 1
  funext a; apply Fin.ext
  match a with
  | ⟨0, _⟩ => show t.val * 5000 + p.val = win1_10.index t (0 : Fin 2) * 5000 + 1 * p.val; omega
  | ⟨1, _⟩ => show q.val = win1_10.index t (1 : Fin 2) * 128 + 1 * q.val; omega

/-- An index of the result lies in point t's block exactly when its row is among that tile's rows. -/
theorem mem_blk (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v37).slice (win1_10.rect t)).set ↔ _
  rw [View.set_slice_whole, Rect.mem_set_unit]
  exact Iff.rfl

/-- The result array after the region: the perceptron of the batch. -/
theorem final (c : Dev nD) (B1 G BB MM VV B2 : Vct 128)
    (hb1 : ∀ q, (V c main_v31 : S1x128.Idx → EReal) (ix2 0 q) = B1 (ix1 q))
    (hg : ∀ q, (V c main_v32 : S1x128.Idx → EReal) (ix2 0 q) = G (ix1 q))
    (hbb : ∀ q, (V c main_v33 : S1x128.Idx → EReal) (ix2 0 q) = BB (ix1 q))
    (hmm : ∀ q, (V c main_v34 : S1x128.Idx → EReal) (ix2 0 q) = MM (ix1 q))
    (hvv : ∀ q, (V c main_v35 : S1x128.Idx → EReal) (ix2 0 q) = VV (ix1 q))
    (hb2 : ∀ q, (V c main_v36 : S1x128.Idx → EReal) (ix2 0 q) = B2 (ix1 q)) :
    (dat1 V c).arrAt 10 cfg1.N = ginMlp (V c main_v20) (V c main_v30) (V c main_arg10) B1 G BB MM VV (V c main_arg16) B2 :=
  (dat1 V c).arrAt_eq_of_cover 10 _ (fun t _ => flushed_eq V c B1 G BB MM VV B2 hb1 hg hbb hmm hvv hb2 t) fun i => by
    have hi0 : (i 0).val < 50000 := (i 0).isLt
    have hi1 : (i 1).val < 128 := (i 1).isLt
    have hN : cfg1.N = 10 := N_1
    refine ⟨⟨(i 0).val / 5000, by rw [hN]; omega⟩, flush1_10 _, ?_⟩
    rw [mem_blk]
    obtain ⟨e00, e01, e10, e11, e20, e21, e30, e31, e40, e41, e50, e51, e60, e61, e70, e71, e80, e81, e90, e91, eo0, eo1⟩ := idx_facts ⟨(i 0).val / 5000, by rw [hN]; omega⟩
    intro a
    match a with
    | ⟨0, _⟩ => show win1_10.index _ (0 : Fin 2) * 5000 ≤ (i 0).val ∧ (i 0).val < win1_10.index _ (0 : Fin 2) * 5000 + 5000; rw [eo0]; show (i 0).val / 5000 * 5000 ≤ (i 0).val ∧ (i 0).val < (i 0).val / 5000 * 5000 + 5000; omega
    | ⟨1, _⟩ => show win1_10.index _ (1 : Fin 2) * 128 ≤ (i 1).val ∧ (i 1).val < win1_10.index _ (1 : Fin 2) * 128 + 128; rw [eo1]; omega

end Cert.KernelIdeal.Region1

end
-- ==== Proof.KernelRegion2.lean ====
/-
  The head region, as one function of the arrays it is entered with.

  The region runs its kernel at ten grid points. At point t the moving window holds rows 5000·t … 5000·t + 4999 of the
  hidden-feature matrix, the parameter windows hold their whole arrays, and the stored tile is written back to the same
  rows of the 50000 × 40 result. The ten row blocks tile the rows, so the result array ends holding, entry by entry, the
  head of the whole batch.
-/
import proofs.«103206_j32908039422341_1_alg».proof.Proof.Gen.KernelIdeal.Frame
import proofs.«103206_j32908039422341_1_alg».proof.Proof.KernelTiles
import Idealize.ShloMosaic.Lib.Pipeline.Value
import Idealize.ShloMosaic.Lib.Tactic

set_option maxRecDepth 16384

noncomputable section

namespace Cert.KernelIdeal.Region2

open Cert.KernelIdeal Cert.KernelIdeal.Gen Cert.KernelIdeal.Tiles Cert.GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the moving input and the output sit at row block t, every
    parameter window at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of tile t is row 5000·t + p of the batch. -/
def row (t : Fin cfg2.N) (p : Fin 5000) : Fin 50000 :=
  ⟨t.val * 5000 + p.val, by have h : t.val < 10 := lt_of_lt_of_eq t.isLt N_2; have := p.isLt; omega⟩

/-- Window 0's block at grid point t holds rows 5000·t … 5000·t + 4999 of its array. -/
theorem blk_0 (c : Dev nD) (t : Fin cfg2.N) (p : Fin 5000) (k : Fin 128) :
    (iblk2 V c 0 t : Vec Ideal S5000x128 .f32) (ix2 p k) = (V c main_v37 : Mat 50000 128) (ix2 (row t p) k) := by
  obtain ⟨e00, e01, e10, e11, e20, e21, e30, e31, e40, e41, eo0, eo1⟩ := idx_facts t
  unfold iblk2
  rw [View.read_apply]
  show V c main_v37 _ = V c main_v37 _
  congr 1
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- Window 1 is its whole array at every grid point. -/
theorem blk_1 (c : Dev nD) (t : Fin cfg2.N) :
    (iblk2 V c 1 t : Vec Ideal S128x128 .f32) = (V c main_arg18 : S128x128.Idx → EReal) := by
  funext y
  obtain ⟨e00, e01, e10, e11, e20, e21, e30, e31, e40, e41, eo0, eo1⟩ := idx_facts t
  unfold iblk2
  rw [View.read_apply]
  show V c main_arg18 _ = V c main_arg18 y
  congr 1
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2 is its whole array at every grid point. -/
theorem blk_2 (c : Dev nD) (t : Fin cfg2.N) :
    (iblk2 V c 2 t : Vec Ideal S1x128 .f32) = (V c main_v38 : S1x128.Idx → EReal) := by
  funext y
  obtain ⟨e00, e01, e10, e11, e20, e21, e30, e31, e40, e41, eo0, eo1⟩ := idx_facts t
  unfold iblk2
  rw [View.read_apply]
  show V c main_v38 _ = V c main_v38 y
  congr 1
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 is its whole array at every grid point. -/
theorem blk_3 (c : Dev nD) (t : Fin cfg2.N) :
    (iblk2 V c 3 t : Vec Ideal S128x40 .f32) = (V c main_arg20 : S128x40.Idx → EReal) := by
  funext y
  obtain ⟨e00, e01, e10, e11, e20, e21, e30, e31, e40, e41, eo0, eo1⟩ := idx_facts t
  unfold iblk2
  rw [View.read_apply]
  show V c main_arg20 _ = V c main_arg20 y
  congr 1
  funext a; apply Fin.ext
  match a with
  | ⟨0, _⟩ => show win2_3.index t (0 : Fin 2) * 128 + 1 * (y 0).val = (y 0).val; omega
  | ⟨1, _⟩ => show win2_3.index t (1 : Fin 2) * 40 + 1 * (y 1).val = (y 1).val; omega

/-- Window 4 is its whole array at every grid point. -/
theorem blk_4 (c : Dev nD) (t : Fin cfg2.N) :
    (iblk2 V c 4 t : Vec Ideal S1x40 .f32) = (V c main_v39 : S1x40.Idx → EReal) := by
  funext y
  obtain ⟨e00, e01, e10, e11, e20, e21, e30, e31, e40, e41, eo0, eo1⟩ := idx_facts t
  unfold iblk2
  rw [View.read_apply]
  show V c main_v39 _ = V c main_v39 y
  congr 1
  funext a; apply Fin.ext
  match a with
  | ⟨0, _⟩ => show win2_4.index t (0 : Fin 2) * 1 + 1 * (y 0).val = (y 0).val; omega
  | ⟨1, _⟩ => show win2_4.index t (1 : Fin 2) * 40 + 1 * (y 1).val = (y 1).val; omega

/-- What point t writes back is block t of the batch's head. -/
theorem flushed_eq (c : Dev nD) (B5 : Vct 128) (B6 : Vct 40)
    (hb5 : ∀ q, (V c main_v38 : S1x128.Idx → EReal) (ix2 0 q) = B5 (ix1 q))
    (hb6 : ∀ q, (V c main_v39 : S1x40.Idx → EReal) (ix2 0 q) = B6 (ix1 q))
    (t : Fin cfg2.N) :
    (dat2 V c).flushed 5 t = ((cfg2.win 5).blk t).view.read (Elt Ideal)
      (head (V c main_v37) (V c main_arg18) B5 (V c main_arg20) B6) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz,
    View.ld_unit_zero (S := S128x40) hz, View.ld_unit_zero (S := S1x40) hz]
  rw [blk_1 V c t, blk_2 V c t, blk_3 V c t, blk_4 V c t]
  funext j
  obtain ⟨p, q, rfl⟩ : ∃ (p : Fin 5000) (q : Fin 40), j = ix2 p q := ⟨j 0, j 1, eq_ix2 j⟩
  obtain ⟨e00, e01, e10, e11, e20, e21, e30, e31, e40, e41, eo0, eo1⟩ := idx_facts t
  refine (head_tile (iblk2 V c 0 t) (V c main_arg18) (V c main_v38) (V c main_arg20) (V c main_v39)
    (V c main_v37) B5 B6 p (row t p) (fun k => blk_0 V c t p k) hb5 hb6 q).trans ?_
  rw [View.read_apply]
  congr 1
  funext a; apply Fin.ext
  match a with
  | ⟨0, _⟩ => show t.val * 5000 + p.val = win2_5.index t (0 : Fin 2) * 5000 + 1 * p.val; omega
  | ⟨1, _⟩ => show q.val = win2_5.index t (1 : Fin 2) * 40 + 1 * q.val; omega

/-- An index of the result lies in point t's block exactly when its row is among that tile's rows. -/
theorem mem_blk (t : Fin cfg2.N) (i : S50000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v40).slice (win2_5.rect t)).set ↔ _
  rw [View.set_slice_whole, Rect.mem_set_unit]
  exact Iff.rfl

/-- The result array after the region: the head of the batch. -/
theorem final (c : Dev nD) (B5 : Vct 128) (B6 : Vct 40)
    (hb5 : ∀ q, (V c main_v38 : S1x128.Idx → EReal) (ix2 0 q) = B5 (ix1 q))
    (hb6 : ∀ q, (V c main_v39 : S1x40.Idx → EReal) (ix2 0 q) = B6 (ix1 q)) :
    (dat2 V c).arrAt 5 cfg2.N = head (V c main_v37) (V c main_arg18) B5 (V c main_arg20) B6 :=
  (dat2 V c).arrAt_eq_of_cover 5 _ (fun t _ => flushed_eq V c B5 B6 hb5 hb6 t) fun i => by
    have hi0 : (i 0).val < 50000 := (i 0).isLt
    have hi1 : (i 1).val < 40 := (i 1).isLt
    have hN : cfg2.N = 10 := N_2
    refine ⟨⟨(i 0).val / 5000, by rw [hN]; omega⟩, flush2_5 _, ?_⟩
    rw [mem_blk]
    obtain ⟨e00, e01, e10, e11, e20, e21, e30, e31, e40, e41, eo0, eo1⟩ := idx_facts ⟨(i 0).val / 5000, by rw [hN]; omega⟩
    intro a
    match a with
    | ⟨0, _⟩ => show win2_5.index _ (0 : Fin 2) * 5000 ≤ (i 0).val ∧ (i 0).val < win2_5.index _ (0 : Fin 2) * 5000 + 5000; rw [eo0]; show (i 0).val / 5000 * 5000 ≤ (i 0).val ∧ (i 0).val < (i 0).val / 5000 * 5000 + 5000; omega
    | ⟨1, _⟩ => show win2_5.index _ (1 : Fin 2) * 40 ≤ (i 1).val ∧ (i 1).val < win2_5.index _ (1 : Fin 2) * 40 + 40; rw [eo1]; omega

end Cert.KernelIdeal.Region2

end
-- ==== Proof.KernelFold.lean ====
/-
  The idealized kernel's result, read out of the run.

  Between the regions the program computes on the host: it splits the edge list into source and destination nodes,
  wraps negative source indices, gathers the source nodes' rows, adds them up per destination node, and lays each
  parameter vector out as a one-row matrix. Reading the run's fold from the launch memory forward, the first region is
  entered with the node features, their aggregated neighbours and the first parameter set, and leaves the first hidden
  layer; the second stretch aggregates that layer over the same edges, and the second region leaves the second hidden
  layer; the third region leaves the head of it in the result buffer. Every argument buffer is still what was launched.
-/
import proofs.«103206_j32908039422341_1_alg».proof.Proof.KernelRun
import proofs.«103206_j32908039422341_1_alg».proof.Proof.KernelFoldArgs
import proofs.«103206_j32908039422341_1_alg».proof.Proof.KernelRegion0
import proofs.«103206_j32908039422341_1_alg».proof.Proof.KernelRegion1
import proofs.«103206_j32908039422341_1_alg».proof.Proof.KernelRegion2
import Idealize.ShloMosaic.Lib.StableHlo.Run

set_option maxRecDepth 16384

noncomputable section

namespace Cert.KernelIdeal.Fold

open Cert.KernelIdeal Cert.KernelIdeal.Gen Cert.GinSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- The source node of every edge: row 0 of the edge list. -/
def srcOf (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- The destination node of every edge: row 1 of the edge list. -/
def dstOf (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- Neighbour aggregation: the rows of the source nodes (a negative index counted from the end), summed into the rows
    of the destination nodes, starting from zero. -/
def aggFrom (x : (⟨S50000x128, .f32⟩ : BufTy).Contents (Elt Ideal)) (src dst : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-! ## The first stretch of host operations -/

theorem W1_v1 (c : Dev nD) : W1 m ρ c (Proc.devRef .tc main_v1) = srcOf (arg m c main_arg1) := by
  show StableHlo.after hostOps0 _ (Proc.devRef .tc main_v1) = _
  unfold srcOf
  dsimp only [hostOps0]
  after_results <;> rfl

theorem W1_v3 (c : Dev nD) : W1 m ρ c (Proc.devRef .tc main_v3) = dstOf (arg m c main_arg1) := by
  show StableHlo.after hostOps0 _ (Proc.devRef .tc main_v3) = _
  unfold dstOf
  dsimp only [hostOps0]
  after_results <;> rfl

set_option maxHeartbeats 4000000 in
theorem W1_v13 (c : Dev nD) :
    W1 m ρ c (Proc.devRef .tc main_v13) = aggFrom (arg m c main_arg0) (srcOf (arg m c main_arg1)) (dstOf (arg m c main_arg1)) := by
  show StableHlo.after hostOps0 _ (Proc.devRef .tc main_v13) = _
  dsimp only [hostOps0]
  after_results <;> rfl

theorem W1_row14 (c : Dev nD) (q : Fin 128) :
    (W1 m ρ c (Proc.devRef .tc main_v14) : S1x128.Idx → EReal) (ix2 0 q) = arg m c main_arg3 (ix1 q) := by
  have e : (W1 m ρ c (Proc.devRef .tc main_v14) : S1x128.Idx → EReal)
      = shapeCast S1x128 (arg m c main_arg3 : S128.Idx → EReal) shapeCasts_S128_S1x128 := by
    show StableHlo.after hostOps0 _ (Proc.devRef .tc main_v14) = _
    dsimp only [hostOps0]
    after_results <;> rfl
  rw [e]
  exact OneRowMatrix.row_of_vector _ _ q

theorem W1_row15 (c : Dev nD) (q : Fin 128) :
    (W1 m ρ c (Proc.devRef .tc main_v15) : S1x128.Idx → EReal) (ix2 0 q) = arg m c main_arg4 (ix1 q) := by
  have e : (W1 m ρ c (Proc.devRef .tc main_v15) : S1x128.Idx → EReal)
      = shapeCast S1x128 (arg m c main_arg4 : S128.Idx → EReal) shapeCasts_S128_S1x128 := by
    show StableHlo.after hostOps0 _ (Proc.devRef .tc main_v15) = _
    dsimp only [hostOps0]
    after_results <;> rfl
  rw [e]
  exact OneRowMatrix.row_of_vector _ _ q

theorem W1_row16 (c : Dev nD) (q : Fin 128) :
    (W1 m ρ c (Proc.devRef .tc main_v16) : S1x128.Idx → EReal) (ix2 0 q) = arg m c main_arg5 (ix1 q) := by
  have e : (W1 m ρ c (Proc.devRef .tc main_v16) : S1x128.Idx → EReal)
      = shapeCast S1x128 (arg m c main_arg5 : S128.Idx → EReal) shapeCasts_S128_S1x128 := by
    show StableHlo.after hostOps0 _ (Proc.devRef .tc main_v16) = _
    dsimp only [hostOps0]
    after_results <;> rfl
  rw [e]
  exact OneRowMatrix.row_of_vector _ _ q

theorem W1_row17 (c : Dev nD) (q : Fin 128) :
    (W1 m ρ c (Proc.devRef .tc main_v17) : S1x128.Idx → EReal) (ix2 0 q) = arg m c main_arg6 (ix1 q) := by
  have e : (W1 m ρ c (Proc.devRef .tc main_v17) : S1x128.Idx → EReal)
      = shapeCast S1x128 (arg m c main_arg6 : S128.Idx → EReal) shapeCasts_S128_S1x128 := by
    show StableHlo.after hostOps0 _ (Proc.devRef .tc main_v17) = _
    dsimp only [hostOps0]
    after_results <;> rfl
  rw [e]
  exact OneRowMatrix.row_of_vector _ _ q

theorem W1_row18 (c : Dev nD) (q : Fin 128) :
    (W1 m ρ c (Proc.devRef .tc main_v18) : S1x128.Idx → EReal) (ix2 0 q) = arg m c main_arg7 (ix1 q) := by
  have e : (W1 m ρ c (Proc.devRef .tc main_v18) : S1x128.Idx → EReal)
      = shapeCast S1x128 (arg m c main_arg7 : S128.Idx → EReal) shapeCasts_S128_S1x128 := by
    show StableHlo.after hostOps0 _ (Proc.devRef .tc main_v18) = _
    dsimp only [hostOps0]
    after_results <;> rfl
  rw [e]
  exact OneRowMatrix.row_of_vector _ _ q

theorem W1_row19 (c : Dev nD) (q : Fin 128) :
    (W1 m ρ c (Proc.devRef .tc main_v19) : S1x128.Idx → EReal) (ix2 0 q) = arg m c main_arg9 (ix1 q) := by
  have e : (W1 m ρ c (Proc.devRef .tc main_v19) : S1x128.Idx → EReal)
      = shapeCast S1x128 (arg m c main_arg9 : S128.Idx → EReal) shapeCasts_S128_S1x128 := by
    show StableHlo.after hostOps0 _ (Proc.devRef .tc main_v19) = _
    dsimp only [hostOps0]
    after_results <;> rfl
  rw [e]
  exact OneRowMatrix.row_of_vector _ _ q

/-! ## The first hidden layer -/

/-- The first hidden layer, from the launched arrays. -/
def H1 (c : Dev nD) : Mat 50000 128 :=
  ginMlp (arg m c main_arg0) (aggFrom (arg m c main_arg0) (srcOf (arg m c main_arg1)) (dstOf (arg m c main_arg1)))
    (arg m c main_arg2) (arg m c main_arg3) (arg m c main_arg4) (arg m c main_arg5) (arg m c main_arg6) (arg m c main_arg7)
    (arg m c main_arg8) (arg m c main_arg9)

theorem W2_v20 (c : Dev nD) : W2 m ρ c (Proc.devRef .tc main_v20) = H1 m c := by
  refine (W2_arr m ρ c 10).trans ?_
  rw [Region0.final (V1 m ρ) c (arg m c main_arg3) (arg m c main_arg4) (arg m c main_arg5) (arg m c main_arg6) (arg m c main_arg7)
    (arg m c main_arg9) (W1_row14 m ρ c) (W1_row15 m ρ c) (W1_row16 m ρ c) (W1_row17 m ρ c) (W1_row18 m ρ c) (W1_row19 m ρ c)]
  have h0 : V1 m ρ c main_arg0 = arg m c main_arg0 := FoldArgs.W1_arg0 m ρ c
  have h2 : V1 m ρ c main_arg2 = arg m c main_arg2 := FoldArgs.W1_arg2 m ρ c
  have h8 : V1 m ρ c main_arg8 = arg m c main_arg8 := FoldArgs.W1_arg8 m ρ c
  have ha : V1 m ρ c main_v13 = aggFrom (arg m c main_arg0) (srcOf (arg m c main_arg1)) (dstOf (arg m c main_arg1)) := W1_v13 m ρ c
  rw [h0, h2, h8, ha]
  rfl

/-! ## The second stretch and the second hidden layer -/

set_option maxHeartbeats 4000000 in
theorem W3_v30 (c : Dev nD) :
    W3 m ρ c (Proc.devRef .tc main_v30) = aggFrom (H1 m c) (srcOf (arg m c main_arg1)) (dstOf (arg m c main_arg1)) := by
  have e : W3 m ρ c (Proc.devRef .tc main_v30)
      = aggFrom (W2 m ρ c (Proc.devRef .tc main_v20)) (W2 m ρ c (Proc.devRef .tc main_v1)) (W2 m ρ c (Proc.devRef .tc main_v3)) := by
    show StableHlo.after hostOps1 _ (Proc.devRef .tc main_v30) = _
    dsimp only [hostOps1]
    after_results <;> rfl
  rw [e, W2_v20, FoldArgs.W2_v1, FoldArgs.W2_v3, W1_v1, W1_v3]

theorem W3_row31 (c : Dev nD) (q : Fin 128) :
    (W3 m ρ c (Proc.devRef .tc main_v31) : S1x128.Idx → EReal) (ix2 0 q) = arg m c main_arg11 (ix1 q) := by
  have e : (W3 m ρ c (Proc.devRef .tc main_v31) : S1x128.Idx → EReal)
      = shapeCast S1x128 (W2 m ρ c (Proc.devRef .tc main_arg11) : S128.Idx → EReal) shapeCasts_S128_S1x128 := by
    show StableHlo.after hostOps1 _ (Proc.devRef .tc main_v31) = _
    dsimp only [hostOps1]
    after_results <;> rfl
  rw [e, FoldArgs.W2_arg11]
  exact OneRowMatrix.row_of_vector _ _ q

theorem W3_row32 (c : Dev nD) (q : Fin 128) :
    (W3 m ρ c (Proc.devRef .tc main_v32) : S1x128.Idx → EReal) (ix2 0 q) = arg m c main_arg12 (ix1 q) := by
  have e : (W3 m ρ c (Proc.devRef .tc main_v32) : S1x128.Idx → EReal)
      = shapeCast S1x128 (W2 m ρ c (Proc.devRef .tc main_arg12) : S128.Idx → EReal) shapeCasts_S128_S1x128 := by
    show StableHlo.after hostOps1 _ (Proc.devRef .tc main_v32) = _
    dsimp only [hostOps1]
    after_results <;> rfl
  rw [e, FoldArgs.W2_arg12]
  exact OneRowMatrix.row_of_vector _ _ q

theorem W3_row33 (c : Dev nD) (q : Fin 128) :
    (W3 m ρ c (Proc.devRef .tc main_v33) : S1x128.Idx → EReal) (ix2 0 q) = arg m c main_arg13 (ix1 q) := by
  have e : (W3 m ρ c (Proc.devRef .tc main_v33) : S1x128.Idx → EReal)
      = shapeCast S1x128 (W2 m ρ c (Proc.devRef .tc main_arg13) : S128.Idx → EReal) shapeCasts_S128_S1x128 := by
    show StableHlo.after hostOps1 _ (Proc.devRef .tc main_v33) = _
    dsimp only [hostOps1]
    after_results <;> rfl
  rw [e, FoldArgs.W2_arg13]
  exact OneRowMatrix.row_of_vector _ _ q

theorem W3_row34 (c : Dev nD) (q : Fin 128) :
    (W3 m ρ c (Proc.devRef .tc main_v34) : S1x128.Idx → EReal) (ix2 0 q) = arg m c main_arg14 (ix1 q) := by
  have e : (W3 m ρ c (Proc.devRef .tc main_v34) : S1x128.Idx → EReal)
      = shapeCast S1x128 (W2 m ρ c (Proc.devRef .tc main_arg14) : S128.Idx → EReal) shapeCasts_S128_S1x128 := by
    show StableHlo.after hostOps1 _ (Proc.devRef .tc main_v34) = _
    dsimp only [hostOps1]
    after_results <;> rfl
  rw [e, FoldArgs.W2_arg14]
  exact OneRowMatrix.row_of_vector _ _ q

theorem W3_row35 (c : Dev nD) (q : Fin 128) :
    (W3 m ρ c (Proc.devRef .tc main_v35) : S1x128.Idx → EReal) (ix2 0 q) = arg m c main_arg15 (ix1 q) := by
  have e : (W3 m ρ c (Proc.devRef .tc main_v35) : S1x128.Idx → EReal)
      = shapeCast S1x128 (W2 m ρ c (Proc.devRef .tc main_arg15) : S128.Idx → EReal) shapeCasts_S128_S1x128 := by
    show StableHlo.after hostOps1 _ (Proc.devRef .tc main_v35) = _
    dsimp only [hostOps1]
    after_results <;> rfl
  rw [e, FoldArgs.W2_arg15]
  exact OneRowMatrix.row_of_vector _ _ q

theorem W3_row36 (c : Dev nD) (q : Fin 128) :
    (W3 m ρ c (Proc.devRef .tc main_v36) : S1x128.Idx → EReal) (ix2 0 q) = arg m c main_arg17 (ix1 q) := by
  have e : (W3 m ρ c (Proc.devRef .tc main_v36) : S1x128.Idx → EReal)
      = shapeCast S1x128 (W2 m ρ c (Proc.devRef .tc main_arg17) : S128.Idx → EReal) shapeCasts_S128_S1x128 := by
    show StableHlo.after hostOps1 _ (Proc.devRef .tc main_v36) = _
    dsimp only [hostOps1]
    after_results <;> rfl
  rw [e, FoldArgs.W2_arg17]
  exact OneRowMatrix.row_of_vector _ _ q

/-- The second hidden layer, from the launched arrays. -/
def H2 (c : Dev nD) : Mat 50000 128 :=
  ginMlp (H1 m c) (aggFrom (H1 m c) (srcOf (arg m c main_arg1)) (dstOf (arg m c main_arg1)))
    (arg m c main_arg10) (arg m c main_arg11) (arg m c main_arg12) (arg m c main_arg13) (arg m c main_arg14) (arg m c main_arg15)
    (arg m c main_arg16) (arg m c main_arg17)

theorem W4_v37 (c : Dev nD) : W4 m ρ c (Proc.devRef .tc main_v37) = H2 m c := by
  refine (W4_arr m ρ c 10).trans ?_
  rw [Region1.final (V3 m ρ) c (arg m c main_arg11) (arg m c main_arg12) (arg m c main_arg13) (arg m c main_arg14) (arg m c main_arg15)
    (arg m c main_arg17) (W3_row31 m ρ c) (W3_row32 m ρ c) (W3_row33 m ρ c) (W3_row34 m ρ c) (W3_row35 m ρ c) (W3_row36 m ρ c)]
  have h0 : V3 m ρ c main_v20 = H1 m c := (FoldArgs.W3_v20 m ρ c).trans (W2_v20 m ρ c)
  have h2 : V3 m ρ c main_arg10 = arg m c main_arg10 := FoldArgs.W3_arg10 m ρ c
  have h8 : V3 m ρ c main_arg16 = arg m c main_arg16 := FoldArgs.W3_arg16 m ρ c
  have ha : V3 m ρ c main_v30 = aggFrom (H1 m c) (srcOf (arg m c main_arg1)) (dstOf (arg m c main_arg1)) := W3_v30 m ρ c
  rw [h0, h2, h8, ha]
  rfl

/-! ## The third stretch and the result -/

theorem W5_row38 (c : Dev nD) (q : Fin 128) :
    (W5 m ρ c (Proc.devRef .tc main_v38) : S1x128.Idx → EReal) (ix2 0 q) = arg m c main_arg19 (ix1 q) := by
  have e : (W5 m ρ c (Proc.devRef .tc main_v38) : S1x128.Idx → EReal)
      = shapeCast S1x128 (W4 m ρ c (Proc.devRef .tc main_arg19) : S128.Idx → EReal) shapeCasts_S128_S1x128 := by
    show StableHlo.after hostOps2 _ (Proc.devRef .tc main_v38) = _
    dsimp only [hostOps2]
    after_results <;> rfl
  rw [e, FoldArgs.W4_arg19]
  exact OneRowMatrix.row_of_vector _ _ q

theorem W5_row39 (c : Dev nD) (q : Fin 40) :
    (W5 m ρ c (Proc.devRef .tc main_v39) : S1x40.Idx → EReal) (ix2 0 q) = arg m c main_arg21 (ix1 q) := by
  have e : (W5 m ρ c (Proc.devRef .tc main_v39) : S1x40.Idx → EReal)
      = shapeCast S1x40 (W4 m ρ c (Proc.devRef .tc main_arg21) : S40.Idx → EReal) shapeCasts_S40_S1x40 := by
    show StableHlo.after hostOps2 _ (Proc.devRef .tc main_v39) = _
    dsimp only [hostOps2]
    after_results <;> rfl
  rw [e, FoldArgs.W4_arg21]
  exact OneRowMatrix.row_of_vector _ _ q

/-- The network's output, from the launched arrays. -/
def logits (c : Dev nD) : Mat 50000 40 :=
  head (H2 m c) (arg m c main_arg18) (arg m c main_arg19) (arg m c main_arg20) (arg m c main_arg21)

theorem W6_v40 (c : Dev nD) : W6 m ρ c (Proc.devRef .tc main_v40) = logits m c := by
  refine (W6_arr m ρ c 5).trans ?_
  rw [Region2.final (V5 m ρ) c (arg m c main_arg19) (arg m c main_arg21) (W5_row38 m ρ c) (W5_row39 m ρ c)]
  have h0 : V5 m ρ c main_v37 = H2 m c := (FoldArgs.W5_v37 m ρ c).trans (W4_v37 m ρ c)
  have h1 : V5 m ρ c main_arg18 = arg m c main_arg18 := FoldArgs.W5_arg18 m ρ c
  have h3 : V5 m ρ c main_arg20 = arg m c main_arg20 := FoldArgs.W5_arg20 m ρ c
  rw [h0, h1, h3]
  rfl

/-! ## The run, read -/

/-- Every weakly fair execution of the idealized kernel terminates without a fault, with the network's output in the
    result buffer and every argument as launched. -/
theorem run : θ_run defs (onTc (τ := τ) (main (F := Ideal))) ⟨m, fun _ => 0, ρ⟩ (fun r => ∀ c : Dev nD,
      r.2.mem ((c : Thread nD τ).loc main_v40) = logits m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)) :=
  (θ_run defs _ _).mono (fun r h c =>
    ⟨(h c _ (mem_uc main_v40 (by decide))).trans (W6_v40 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c),
     (h c _ (mem_uc main_arg20 (by decide))).trans (W6_main_arg20 m ρ c),
     (h c _ (mem_uc main_arg21 (by decide))).trans (W6_main_arg21 m ρ c)⟩)
    (Cert.KernelIdeal.HeldRun.run_held m ρ)

end Cert.KernelIdeal.Fold

end
-- ==== Proof.RefLayers.lean ====
/-
  The reference program, stage by stage, is the network of the specification.

  Each graph layer of the reference adds to the node rows the aggregated neighbour rows, multiplies by a weight matrix
  and adds a bias, normalises column by column with fixed statistics, rectifies, multiplies by a second weight matrix
  and adds a second bias, and rectifies again; the head is product-plus-bias, rectifier, product-plus-bias. Every stage
  is read at an entry (r, q): a product stage is the sum over k of the left operand at (r, k) times the right operand at
  (k, q); a bias, mean, variance, gain or shift vector is first laid out as a one-row matrix and then repeated down the
  rows, so at (r, q) it is the vector's entry q; the rectifier's zero is a constant repeated at every entry. Reading the
  stages of a layer in order gives the specification's formula for that entry, and the aggregation itself is left as
  the opaque term the reference computes.
-/
import proofs.«103206_j32908039422341_1_alg».proof.Proof.Gen.ReferenceIdeal.Read
import proofs.«103206_j32908039422341_1_alg».proof.Proof.Spec

noncomputable section

namespace Cert.ReferenceIdeal.Layers

open Cert.ReferenceIdeal Cert.ReferenceIdeal.Read Cert.GinSpec Idealize.ShloMosaic Idealize.ShloMosaic.ValueIdx

/-! ### Where each stage reads its operands

A product stage reads row r of its left operand and column q of its right operand; a broadcast of a vector along the
rows reads the vector at the column. -/

theorem lidx15 (r : Fin 50000) (q : Fin 128) (k : Fin 128) : lidx_main_v15 (ix2 r q) k = ix2 r k :=
  funext fun a => Fin.ext (by match a with | ⟨0, _⟩ => rfl | ⟨1, _⟩ => rfl)
theorem ridx15 (r : Fin 50000) (q : Fin 128) (k : Fin 128) : ridx_main_v15 (ix2 r q) k = ix2 k q :=
  funext fun a => Fin.ext (by match a with | ⟨0, _⟩ => rfl | ⟨1, _⟩ => rfl)
theorem idx17 (r : Fin 50000) (q : Fin 128) : idx_main_v17 (ix2 r q) = ix2 (0 : Fin 1) q :=
  funext fun a => Fin.ext (by match a with | ⟨0, _⟩ => rfl | ⟨1, _⟩ => rfl)
theorem idx16 (a : Fin 1) (q : Fin 128) : idx_main_v16 (ix2 a q) = ix1 q :=
  funext fun a => Fin.ext (by match a with | ⟨0, _⟩ => rfl)
theorem lidx35 (r : Fin 50000) (q : Fin 128) (k : Fin 128) : lidx_main_v35 (ix2 r q) k = ix2 r k :=
  funext fun a => Fin.ext (by match a with | ⟨0, _⟩ => rfl | ⟨1, _⟩ => rfl)
theorem ridx35 (r : Fin 50000) (q : Fin 128) (k : Fin 128) : ridx_main_v35 (ix2 r q) k = ix2 k q :=
  funext fun a => Fin.ext (by match a with | ⟨0, _⟩ => rfl | ⟨1, _⟩ => rfl)
theorem idx37 (r : Fin 50000) (q : Fin 128) : idx_main_v37 (ix2 r q) = ix2 (0 : Fin 1) q :=
  funext fun a => Fin.ext (by match a with | ⟨0, _⟩ => rfl | ⟨1, _⟩ => rfl)
theorem idx36 (a : Fin 1) (q : Fin 128) : idx_main_v36 (ix2 a q) = ix1 q :=
  funext fun a => Fin.ext (by match a with | ⟨0, _⟩ => rfl)
theorem lidx55 (r : Fin 50000) (q : Fin 128) (k : Fin 128) : lidx_main_v55 (ix2 r q) k = ix2 r k :=
  funext fun a => Fin.ext (by match a with | ⟨0, _⟩ => rfl | ⟨1, _⟩ => rfl)
theorem ridx55 (r : Fin 50000) (q : Fin 128) (k : Fin 128) : ridx_main_v55 (ix2 r q) k = ix2 k q :=
  funext fun a => Fin.ext (by match a with | ⟨0, _⟩ => rfl | ⟨1, _⟩ => rfl)
theorem idx57 (r : Fin 50000) (q : Fin 128) : idx_main_v57 (ix2 r q) = ix2 (0 : Fin 1) q :=
  funext fun a => Fin.ext (by match a with | ⟨0, _⟩ => rfl | ⟨1, _⟩ => rfl)
theorem idx56 (a : Fin 1) (q : Fin 128) : idx_main_v56 (ix2 a q) = ix1 q :=
  funext fun a => Fin.ext (by match a with | ⟨0, _⟩ => rfl)
theorem lidx75 (r : Fin 50000) (q : Fin 128) (k : Fin 128) : lidx_main_v75 (ix2 r q) k = ix2 r k :=
  funext fun a => Fin.ext (by match a with | ⟨0, _⟩ => rfl | ⟨1, _⟩ => rfl)
theorem ridx75 (r : Fin 50000) (q : Fin 128) (k : Fin 128) : ridx_main_v75 (ix2 r q) k = ix2 k q :=
  funext fun a => Fin.ext (by match a with | ⟨0, _⟩ => rfl | ⟨1, _⟩ => rfl)
theorem idx77 (r : Fin 50000) (q : Fin 128) : idx_main_v77 (ix2 r q) = ix2 (0 : Fin 1) q :=
  funext fun a => Fin.ext (by match a with | ⟨0, _⟩ => rfl | ⟨1, _⟩ => rfl)
theorem idx76 (a : Fin 1) (q : Fin 128) : idx_main_v76 (ix2 a q) = ix1 q :=
  funext fun a => Fin.ext (by match a with | ⟨0, _⟩ => rfl)
theorem lidx80 (r : Fin 50000) (q : Fin 128) (k : Fin 128) : lidx_main_v80 (ix2 r q) k = ix2 r k :=
  funext fun a => Fin.ext (by match a with | ⟨0, _⟩ => rfl | ⟨1, _⟩ => rfl)
theorem ridx80 (r : Fin 50000) (q : Fin 128) (k : Fin 128) : ridx_main_v80 (ix2 r q) k = ix2 k q :=
  funext fun a => Fin.ext (by match a with | ⟨0, _⟩ => rfl | ⟨1, _⟩ => rfl)
theorem idx82 (r : Fin 50000) (q : Fin 128) : idx_main_v82 (ix2 r q) = ix2 (0 : Fin 1) q :=
  funext fun a => Fin.ext (by match a with | ⟨0, _⟩ => rfl | ⟨1, _⟩ => rfl)
theorem idx81 (a : Fin 1) (q : Fin 128) : idx_main_v81 (ix2 a q) = ix1 q :=
  funext fun a => Fin.ext (by match a with | ⟨0, _⟩ => rfl)
theorem lidx85 (r : Fin 50000) (q : Fin 40) (k : Fin 128) : lidx_main_v85 (ix2 r q) k = ix2 r k :=
  funext fun a => Fin.ext (by match a with | ⟨0, _⟩ => rfl | ⟨1, _⟩ => rfl)
theorem ridx85 (r : Fin 50000) (q : Fin 40) (k : Fin 128) : ridx_main_v85 (ix2 r q) k = ix2 k q :=
  funext fun a => Fin.ext (by match a with | ⟨0, _⟩ => rfl | ⟨1, _⟩ => rfl)
theorem idx87 (r : Fin 50000) (q : Fin 40) : idx_main_v87 (ix2 r q) = ix2 (0 : Fin 1) q :=
  funext fun a => Fin.ext (by match a with | ⟨0, _⟩ => rfl | ⟨1, _⟩ => rfl)
theorem idx86 (a : Fin 1) (q : Fin 40) : idx_main_v86 (ix2 a q) = ix1 q :=
  funext fun a => Fin.ext (by match a with | ⟨0, _⟩ => rfl)
theorem idx20 (r : Fin 50000) (q : Fin 128) : idx_main_v20 (ix2 r q) = ix2 (0 : Fin 1) q :=
  funext fun a => Fin.ext (by match a with | ⟨0, _⟩ => rfl | ⟨1, _⟩ => rfl)
theorem idx19 (a : Fin 1) (q : Fin 128) : idx_main_v19 (ix2 a q) = ix1 q :=
  funext fun a => Fin.ext (by match a with | ⟨0, _⟩ => rfl)
theorem idx26 (r : Fin 50000) (q : Fin 128) : idx_main_v26 (ix2 r q) = ix2 (0 : Fin 1) q :=
  funext fun a => Fin.ext (by match a with | ⟨0, _⟩ => rfl | ⟨1, _⟩ => rfl)
theorem idx25 (a : Fin 1) (q : Fin 128) : idx_main_v25 (ix2 a q) = ix1 q :=
  funext fun a => Fin.ext (by match a with | ⟨0, _⟩ => rfl)
theorem idx29 (r : Fin 50000) (q : Fin 128) : idx_main_v29 (ix2 r q) = ix2 (0 : Fin 1) q :=
  funext fun a => Fin.ext (by match a with | ⟨0, _⟩ => rfl | ⟨1, _⟩ => rfl)
theorem idx28 (a : Fin 1) (q : Fin 128) : idx_main_v28 (ix2 a q) = ix1 q :=
  funext fun a => Fin.ext (by match a with | ⟨0, _⟩ => rfl)
theorem idx32 (r : Fin 50000) (q : Fin 128) : idx_main_v32 (ix2 r q) = ix2 (0 : Fin 1) q :=
  funext fun a => Fin.ext (by match a with | ⟨0, _⟩ => rfl | ⟨1, _⟩ => rfl)
theorem idx31 (a : Fin 1) (q : Fin 128) : idx_main_v31 (ix2 a q) = ix1 q :=
  funext fun a => Fin.ext (by match a with | ⟨0, _⟩ => rfl)
theorem idx60 (r : Fin 50000) (q : Fin 128) : idx_main_v60 (ix2 r q) = ix2 (0 : Fin 1) q :=
  funext fun a => Fin.ext (by match a with | ⟨0, _⟩ => rfl | ⟨1, _⟩ => rfl)
theorem idx59 (a : Fin 1) (q : Fin 128) : idx_main_v59 (ix2 a q) = ix1 q :=
  funext fun a => Fin.ext (by match a with | ⟨0, _⟩ => rfl)
theorem idx66 (r : Fin 50000) (q : Fin 128) : idx_main_v66 (ix2 r q) = ix2 (0 : Fin 1) q :=
  funext fun a => Fin.ext (by match a with | ⟨0, _⟩ => rfl | ⟨1, _⟩ => rfl)
theorem idx65 (a : Fin 1) (q : Fin 128) : idx_main_v65 (ix2 a q) = ix1 q :=
  funext fun a => Fin.ext (by match a with | ⟨0, _⟩ => rfl)
theorem idx69 (r : Fin 50000) (q : Fin 128) : idx_main_v69 (ix2 r q) = ix2 (0 : Fin 1) q :=
  funext fun a => Fin.ext (by match a with | ⟨0, _⟩ => rfl | ⟨1, _⟩ => rfl)
theorem idx68 (a : Fin 1) (q : Fin 128) : idx_main_v68 (ix2 a q) = ix1 q :=
  funext fun a => Fin.ext (by match a with | ⟨0, _⟩ => rfl)
theorem idx72 (r : Fin 50000) (q : Fin 128) : idx_main_v72 (ix2 r q) = ix2 (0 : Fin 1) q :=
  funext fun a => Fin.ext (by match a with | ⟨0, _⟩ => rfl | ⟨1, _⟩ => rfl)
theorem idx71 (a : Fin 1) (q : Fin 128) : idx_main_v71 (ix2 a q) = ix1 q :=
  funext fun a => Fin.ext (by match a with | ⟨0, _⟩ => rfl)
/-! ### The first graph layer -/

/-- The layer's operand: each node's row plus the sum of its neighbours' rows. -/
theorem sum1 (x0 : (⟨S50000x128, .f32⟩ : BufTy).Contents (Elt Ideal)) (x1 : (⟨S2x600000, .i32⟩ : BufTy).Contents (Elt Ideal)) :
    val_main_v14 (F := Ideal) x0 x1 = fun i => x0 i + val_main_v13 (F := Ideal) x0 x1 i := rfl

/-- Product with x2, plus the bias x3 on every row. -/
theorem dense1 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) :
    val_main_v18 (F := Ideal) x0 x1 x2 x3 = dense (val_main_v14 (F := Ideal) x0 x1) x2 x3 := by
  funext i
  obtain ⟨r, q, rfl⟩ : ∃ (r : Fin 50000) (q : Fin 128), i = ix2 r q := ⟨i 0, i 1, eq_ix2 i⟩
  rw [val_main_v18_apply, val_main_v15_apply, val_main_v17_apply, idx17, val_main_v16_apply, idx16, dense_apply]
  simp only [lidx15, ridx15]
  rfl

/-- Subtract the mean x6, scale by the reciprocal root of the variance x7 plus ε, scale by the gain x4, add the shift x5. -/
theorem norm1 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) :
    val_main_v33 (F := Ideal) x0 x1 x2 x3 x4 x5 x6 x7 = bnorm (val_main_v18 (F := Ideal) x0 x1 x2 x3) x4 x5 x6 x7 := by
  funext i
  obtain ⟨r, q, rfl⟩ : ∃ (r : Fin 50000) (q : Fin 128), i = ix2 r q := ⟨i 0, i 1, eq_ix2 i⟩
  rw [val_main_v33_apply, val_main_v30_apply, val_main_v27_apply, val_main_v21_apply,
    val_main_v20_apply, idx20, val_main_v19_apply, idx19,
    val_main_v26_apply, idx26, val_main_v25_apply, idx25, val_main_v24_apply, val_main_v23_apply,
    val_main_v22_apply, val_main_cst_1_apply,
    val_main_v29_apply, idx29, val_main_v28_apply, idx28,
    val_main_v32_apply, idx32, val_main_v31_apply, idx31, bnorm_apply]
  rfl

/-- Maximum with zero, entry by entry. -/
theorem relu1 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) :
    val_main_v34 (F := Ideal) x0 x1 x2 x3 x4 x5 x6 x7 = relu (val_main_v33 (F := Ideal) x0 x1 x2 x3 x4 x5 x6 x7) := by
  funext i
  obtain ⟨r, q, rfl⟩ : ∃ (r : Fin 50000) (q : Fin 128), i = ix2 r q := ⟨i 0, i 1, eq_ix2 i⟩
  rw [val_main_v34_apply, val_main_call0_v0_apply, val_main_call0_cst_apply, relu_apply]
  rfl

/-- Product with x8, plus the bias x9 on every row. -/
theorem dense2 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v38 (F := Ideal) x0 x1 x2 x3 x4 x5 x6 x7 x8 x9 = dense (val_main_v34 (F := Ideal) x0 x1 x2 x3 x4 x5 x6 x7) x8 x9 := by
  funext i
  obtain ⟨r, q, rfl⟩ : ∃ (r : Fin 50000) (q : Fin 128), i = ix2 r q := ⟨i 0, i 1, eq_ix2 i⟩
  rw [val_main_v38_apply, val_main_v35_apply, val_main_v37_apply, idx37, val_main_v36_apply, idx36, dense_apply]
  simp only [lidx35, ridx35]
  rfl

/-- Maximum with zero, entry by entry. -/
theorem relu2 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v39 (F := Ideal) x0 x1 x2 x3 x4 x5 x6 x7 x8 x9 = relu (val_main_v38 (F := Ideal) x0 x1 x2 x3 x4 x5 x6 x7 x8 x9) := by
  funext i
  obtain ⟨r, q, rfl⟩ : ∃ (r : Fin 50000) (q : Fin 128), i = ix2 r q := ⟨i 0, i 1, eq_ix2 i⟩
  rw [val_main_v39_apply, val_main_call1_v0_apply, val_main_call1_cst_apply, relu_apply]
  rfl

theorem layer1 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v39 (F := Ideal) x0 x1 x2 x3 x4 x5 x6 x7 x8 x9
      = ginMlp x0 (val_main_v13 (F := Ideal) x0 x1) x2 x3 x4 x5 x6 x7 x8 x9 := by
  rw [relu2, dense2, relu1, norm1, dense1, sum1]
  rfl

/-! ### The second graph layer -/

/-- The layer's operand: each row of the first layer's result plus the sum of its neighbours' rows. -/
theorem sum2 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v54 (F := Ideal) x0 x1 x2 x3 x4 x5 x6 x7 x8 x9
      = fun i => val_main_v39 (F := Ideal) x0 x1 x2 x3 x4 x5 x6 x7 x8 x9 i + val_main_v53 (F := Ideal) x0 x1 x2 x3 x4 x5 x6 x7 x8 x9 i := rfl

/-- Product with x10, plus the bias x11 on every row. -/
theorem dense3 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v58 (F := Ideal) x0 x1 x2 x3 x4 x5 x6 x7 x8 x9 x10 x11 = dense (val_main_v54 (F := Ideal) x0 x1 x2 x3 x4 x5 x6 x7 x8 x9) x10 x11 := by
  funext i
  obtain ⟨r, q, rfl⟩ : ∃ (r : Fin 50000) (q : Fin 128), i = ix2 r q := ⟨i 0, i 1, eq_ix2 i⟩
  rw [val_main_v58_apply, val_main_v55_apply, val_main_v57_apply, idx57, val_main_v56_apply, idx56, dense_apply]
  simp only [lidx55, ridx55]
  rfl

/-- Subtract the mean x14, scale by the reciprocal root of the variance x15 plus ε, scale by the gain x12, add the shift x13. -/
theorem norm2 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) :
    val_main_v73 (F := Ideal) x0 x1 x2 x3 x4 x5 x6 x7 x8 x9 x10 x11 x12 x13 x14 x15 = bnorm (val_main_v58 (F := Ideal) x0 x1 x2 x3 x4 x5 x6 x7 x8 x9 x10 x11) x12 x13 x14 x15 := by
  funext i
  obtain ⟨r, q, rfl⟩ : ∃ (r : Fin 50000) (q : Fin 128), i = ix2 r q := ⟨i 0, i 1, eq_ix2 i⟩
  rw [val_main_v73_apply, val_main_v70_apply, val_main_v67_apply, val_main_v61_apply,
    val_main_v60_apply, idx60, val_main_v59_apply, idx59,
    val_main_v66_apply, idx66, val_main_v65_apply, idx65, val_main_v64_apply, val_main_v63_apply,
    val_main_v62_apply, val_main_cst_5_apply,
    val_main_v69_apply, idx69, val_main_v68_apply, idx68,
    val_main_v72_apply, idx72, val_main_v71_apply, idx71, bnorm_apply]
  rfl

/-- Maximum with zero, entry by entry. -/
theorem relu3 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) :
    val_main_v74 (F := Ideal) x0 x1 x2 x3 x4 x5 x6 x7 x8 x9 x10 x11 x12 x13 x14 x15 = relu (val_main_v73 (F := Ideal) x0 x1 x2 x3 x4 x5 x6 x7 x8 x9 x10 x11 x12 x13 x14 x15) := by
  funext i
  obtain ⟨r, q, rfl⟩ : ∃ (r : Fin 50000) (q : Fin 128), i = ix2 r q := ⟨i 0, i 1, eq_ix2 i⟩
  rw [val_main_v74_apply, val_main_call2_v0_apply, val_main_call2_cst_apply, relu_apply]
  rfl

/-- Product with x16, plus the bias x17 on every row. -/
theorem dense4 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v78 (F := Ideal) x0 x1 x2 x3 x4 x5 x6 x7 x8 x9 x10 x11 x12 x13 x14 x15 x16 x17 = dense (val_main_v74 (F := Ideal) x0 x1 x2 x3 x4 x5 x6 x7 x8 x9 x10 x11 x12 x13 x14 x15) x16 x17 := by
  funext i
  obtain ⟨r, q, rfl⟩ : ∃ (r : Fin 50000) (q : Fin 128), i = ix2 r q := ⟨i 0, i 1, eq_ix2 i⟩
  rw [val_main_v78_apply, val_main_v75_apply, val_main_v77_apply, idx77, val_main_v76_apply, idx76, dense_apply]
  simp only [lidx75, ridx75]
  rfl

/-- Maximum with zero, entry by entry. -/
theorem relu4 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v79 (F := Ideal) x0 x1 x2 x3 x4 x5 x6 x7 x8 x9 x10 x11 x12 x13 x14 x15 x16 x17 = relu (val_main_v78 (F := Ideal) x0 x1 x2 x3 x4 x5 x6 x7 x8 x9 x10 x11 x12 x13 x14 x15 x16 x17) := by
  funext i
  obtain ⟨r, q, rfl⟩ : ∃ (r : Fin 50000) (q : Fin 128), i = ix2 r q := ⟨i 0, i 1, eq_ix2 i⟩
  rw [val_main_v79_apply, val_main_call3_v0_apply, val_main_call3_cst_apply, relu_apply]
  rfl

theorem layer2 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) :
    val_main_v79 (F := Ideal) x0 x1 x2 x3 x4 x5 x6 x7 x8 x9 x10 x11 x12 x13 x14 x15 x16 x17
      = ginMlp (val_main_v39 (F := Ideal) x0 x1 x2 x3 x4 x5 x6 x7 x8 x9) (val_main_v53 (F := Ideal) x0 x1 x2 x3 x4 x5 x6 x7 x8 x9)
          x10 x11 x12 x13 x14 x15 x16 x17 := by
  rw [relu4, dense4, relu3, norm2, dense3, sum2]
  rfl

/-! ### The classification head -/

/-- Product with x18, plus the bias x19 on every row. -/
theorem dense5 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v83 (F := Ideal) x0 x1 x2 x3 x4 x5 x6 x7 x8 x9 x10 x11 x12 x13 x14 x15 x16 x17 x18 x19 = dense (val_main_v79 (F := Ideal) x0 x1 x2 x3 x4 x5 x6 x7 x8 x9 x10 x11 x12 x13 x14 x15 x16 x17) x18 x19 := by
  funext i
  obtain ⟨r, q, rfl⟩ : ∃ (r : Fin 50000) (q : Fin 128), i = ix2 r q := ⟨i 0, i 1, eq_ix2 i⟩
  rw [val_main_v83_apply, val_main_v80_apply, val_main_v82_apply, idx82, val_main_v81_apply, idx81, dense_apply]
  simp only [lidx80, ridx80]
  rfl

/-- Maximum with zero, entry by entry. -/
theorem relu5 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    val_main_v84 (F := Ideal) x0 x1 x2 x3 x4 x5 x6 x7 x8 x9 x10 x11 x12 x13 x14 x15 x16 x17 x18 x19 = relu (val_main_v83 (F := Ideal) x0 x1 x2 x3 x4 x5 x6 x7 x8 x9 x10 x11 x12 x13 x14 x15 x16 x17 x18 x19) := by
  funext i
  obtain ⟨r, q, rfl⟩ : ∃ (r : Fin 50000) (q : Fin 128), i = ix2 r q := ⟨i 0, i 1, eq_ix2 i⟩
  rw [val_main_v84_apply, val_main_call4_v0_apply, val_main_call4_cst_apply, relu_apply]
  rfl

/-- Product with x20, plus the bias x21 on every row. -/
theorem dense6 (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x40, .f32⟩ : BufTy).Contents (Elt Ideal)) (x21 : (⟨S40, .f32⟩ : BufTy).Contents (Elt Ideal)) :
    val_main_v88 (F := Ideal) x0 x1 x2 x3 x4 x5 x6 x7 x8 x9 x10 x11 x12 x13 x14 x15 x16 x17 x18 x19 x20 x21 = dense (val_main_v84 (F := Ideal) x0 x1 x2 x3 x4 x5 x6 x7 x8 x9 x10 x11 x12 x13 x14 x15 x16 x17 x18 x19) x20 x21 := by
  funext i
  obtain ⟨r, q, rfl⟩ : ∃ (r : Fin 50000) (q : Fin 40), i = ix2 r q := ⟨i 0, i 1, eq_ix2 i⟩
  rw [val_main_v88_apply, val_main_v85_apply, val_main_v87_apply, idx87, val_main_v86_apply, idx86, dense_apply]
  simp only [lidx85, ridx85]
  rfl

theorem logits (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x40, .f32⟩ : BufTy).Contents (Elt Ideal)) (x21 : (⟨S40, .f32⟩ : BufTy).Contents (Elt Ideal)) :
    val_main_v88 (F := Ideal) x0 x1 x2 x3 x4 x5 x6 x7 x8 x9 x10 x11 x12 x13 x14 x15 x16 x17 x18 x19 x20 x21
      = head (val_main_v79 (F := Ideal) x0 x1 x2 x3 x4 x5 x6 x7 x8 x9 x10 x11 x12 x13 x14 x15 x16 x17) x18 x19 x20 x21 := by
  rw [dense6, relu5, dense5]
  rfl

end Cert.ReferenceIdeal.Layers

end
-- ==== Proof.Bridge.lean ====
/-
  The two programs compute one function.

  The reference aggregates neighbours exactly as the kernel's host stretches do: the same split of the edge list into
  sources and destinations, the same wrap of negative source indices, the same gather of source rows and the same sum
  into destination rows from zero; the two texts differ only in where the shapes and dimension records are declared. So
  each aggregation of the reference is the kernel side's aggregation of the same operand. With the reference's layers
  read as the specification's perceptron and head, its result is the specification's network of the launched arrays,
  which is what the kernel's run leaves in its result buffer when the two memories agree on the arguments.
-/
import proofs.«103206_j32908039422341_1_alg».proof.Proof.KernelFold
import proofs.«103206_j32908039422341_1_alg».proof.Proof.RefLayers
import proofs.«103206_j32908039422341_1_alg».proof.Proof.Gen.ReferenceIdeal.Run

set_option maxRecDepth 16384

noncomputable section

namespace Cert.Bridge

open Idealize.ShloMosaic Idealize.ShloMosaic.TcCoe Idealize.SL.Sem Cert.GinSpec
open Cert.ReferenceIdeal.Read Cert.KernelIdeal.Fold

/-- The reference's first aggregation is the aggregation of the node features over the edge list. -/
theorem agg1_eq (x0 : (⟨Cert.ReferenceIdeal.S50000x128, .f32⟩ : BufTy).Contents (Elt Ideal)) (x1 : (⟨Cert.ReferenceIdeal.S2x600000, .i32⟩ : BufTy).Contents (Elt Ideal)) :
    val_main_v13 (F := Ideal) x0 x1 = aggFrom x0 (srcOf x1) (dstOf x1) := by
  unfold val_main_v13 val_main_v12 val_main_v11 val_main_cst val_main_v10 val_main_v9 val_main_v8 val_main_v7 val_main_v6 val_main_c_0
    val_main_v5 val_main_v4 val_main_c val_main_v3 val_main_v2 val_main_v1 val_main_v0 aggFrom srcOf dstOf
  rfl

/-- The reference's second aggregation is the aggregation of the first hidden layer over the same edge list. -/
theorem agg2_eq (x0 : (⟨Cert.ReferenceIdeal.S50000x128, .f32⟩ : BufTy).Contents (Elt Ideal)) (x1 : (⟨Cert.ReferenceIdeal.S2x600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) :
    val_main_v53 (F := Ideal) x0 x1 x2 x3 x4 x5 x6 x7 x8 x9 = aggFrom (val_main_v39 (F := Ideal) x0 x1 x2 x3 x4 x5 x6 x7 x8 x9) (srcOf x1) (dstOf x1) := by
  unfold val_main_v53 val_main_v52 val_main_v51 val_main_cst_4 val_main_v50 val_main_v49 val_main_v48 val_main_v47 val_main_v46 val_main_c_3
    val_main_v45 val_main_v44 val_main_c_2 val_main_v43 val_main_v42 val_main_v41 val_main_v40 aggFrom srcOf dstOf
  rfl

/-- The reference's result, from memories that agree with the kernel's on the arguments, is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.Value.res_main_v88 m' c = logits m c := by
  rw [val_main_v88_eq, Cert.ReferenceIdeal.Layers.logits, Cert.ReferenceIdeal.Layers.layer2, agg2_eq, Cert.ReferenceIdeal.Layers.layer1, agg1_eq,
    h0, h1, h2, h3, h4, h5, h6, h7, h8, h9, h10, h11, h12, h13, h14, h15, h16, h17, h18, h19, h20, h21]
  rfl

end Cert.Bridge

end
-- ==== Proof.lean ====
/-
  A two-layer graph isomorphism network with a classification head, as a row-tiled kernel and as plain array code.

  Both programs first add to every node's feature row the sum of its neighbours' rows over the same edge list, on the
  host. The kernel then computes each layer's perceptron (product with a weight matrix plus bias, normalisation with
  fixed statistics, rectifier, second product plus bias, rectifier) in tiles of 5000 node rows, and the head (product
  plus bias, rectifier, product plus bias) likewise; the reference computes the same maps on the whole 50000 × 128
  batch. On the extended reals every one of these maps acts on the rows independently, a tile's product into the zero
  accumulator is the plain sum over the contracted axis, and the two programs use the same literals, so the results are
  equal entry by entry and no finiteness of the inputs is used. The idealization rewrote no operation, so the kernel's
  idealized text is its own text read on the extended reals.
-/
import proofs.«103206_j32908039422341_1_alg».proof.Defs
import proofs.«103206_j32908039422341_1_alg».proof.Proof.Gen.Kernel
import proofs.«103206_j32908039422341_1_alg».proof.Proof.Gen.Kernel.Skeleton
import proofs.«103206_j32908039422341_1_alg».proof.Proof.Gen.Kernel.Launch
import proofs.«103206_j32908039422341_1_alg».proof.Proof.Gen.Kernel.Points
import proofs.«103206_j32908039422341_1_alg».proof.Proof.Gen.Kernel.Frame
import proofs.«103206_j32908039422341_1_alg».proof.Proof.Gen.KernelIdeal
import proofs.«103206_j32908039422341_1_alg».proof.Proof.Gen.KernelIdeal.Skeleton
import proofs.«103206_j32908039422341_1_alg».proof.Proof.Gen.KernelIdeal.Launch
import proofs.«103206_j32908039422341_1_alg».proof.Proof.Gen.KernelIdeal.Points
import proofs.«103206_j32908039422341_1_alg».proof.Proof.Gen.KernelIdeal.Frame
import proofs.«103206_j32908039422341_1_alg».proof.Proof.Gen.ReferenceIdeal
import proofs.«103206_j32908039422341_1_alg».proof.Proof.Gen.Pre_finite_inputs
import proofs.«103206_j32908039422341_1_alg».proof.Proof.Gen.ReferenceIdeal.Run
import proofs.«103206_j32908039422341_1_alg».proof.Proof.Gen.ReferenceIdeal.Read
import proofs.«103206_j32908039422341_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- Both programs end with the network's output of the launched arrays in their result buffers. -/
theorem algebraic : Cert.algebraic_KernelIdeal_ReferenceIdeal := by
  intro m ρ m' ρ' _ hagree
  refine ⟨fun c => Cert.KernelIdeal.Fold.logits m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  exact Cert.Bridge.result_eq m m' c h0 h1 h2 h3 h4 h5 h6 h7 h8 h9 h10 h11 h12 h13 h14 h15 h16 h17 h18 h19 h20 h21

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
